-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x196x1024 : Shape := ⟨4, ![2, 128, 196, 1024]⟩
abbrev S2048x1024 : Shape := ⟨2, ![2048, 1024]⟩
abbrev S2048 : Shape := ⟨1, ![2048]⟩
abbrev S8x2048 : Shape := ⟨2, ![8, 2048]⟩
abbrev S8 : Shape := ⟨1, ![8]⟩
abbrev S1024x8 : Shape := ⟨2, ![1024, 8]⟩
abbrev S1024 : Shape := ⟨1, ![1024]⟩
abbrev S1x8 : Shape := ⟨2, ![1, 8]⟩
abbrev S_ : Shape := ⟨0, ![]⟩

class Facts : Prop where
  bcast_S_S2x128x196x1024 : S_.BroadcastsInDim S2x128x196x1024 (![] : Fin 0 → Fin S2x128x196x1024.rank)
  reducesTo_S2x128x196x1024_S_d0_1_2_3 : S2x128x196x1024.ReducesTo [0, 1, 2, 3] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S8x2048 : S_.BroadcastsInDim S8x2048 (![] : Fin 0 → Fin S8x2048.rank)
  reducesTo_S8x2048_S_d0_1 : S8x2048.ReducesTo [0, 1] S_
  bcast_S_S8 : S_.BroadcastsInDim S8 (![] : Fin 0 → Fin S8.rank)
  reducesTo_S8_S_d0 : S8.ReducesTo [0] S_
  bcast_S_S1024x8 : S_.BroadcastsInDim S1024x8 (![] : Fin 0 → Fin S1024x8.rank)
  reducesTo_S1024x8_S_d0_1 : S1024x8.ReducesTo [0, 1] S_
  bcast_S_S1024 : S_.BroadcastsInDim S1024 (![] : Fin 0 → Fin S1024.rank)
  reducesTo_S1024_S_d0 : S1024.ReducesTo [0] S_
  bcast_S_S1x8 : S_.BroadcastsInDim S1x8 (![] : Fin 0 → Fin S1x8.rank)
  reducesTo_S1x8_S_d0_1 : S1x8.ReducesTo [0, 1] S_

variable [Facts]

def fn_part2 {F : FTy → Type} [FloatOps F] (main_arg7 : FVec F S1x8 .f32) (main_arg8 : FVec F S1024 .f32) (main_arg9 : FVec F S1024 .f32) (main_v33 : IVec S_ 1) : IVec S_ 1 :=
  let main_v34 : FVec F S1x8 .f32 := Host.absf main_arg7
  let main_cst_12 : FVec F S_ .f32 := constant S_ .f32 0x7F800000#32
  let main_v35 : FVec F S1x8 .f32 := broadcastInDim S1x8 ![] bcast_S_S1x8 main_cst_12
  let main_v36 : IVec S1x8 1 := cmpf .olt main_v34 main_v35
  let main_c_13 : IVec S_ 1 := constantI S_ 1 1#1
  let main_v37 : IVec S_ 1 := (fun x v => Host.reduce IntOp.andi x v reducesTo_S1x8_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S8 .f32) (main_arg5 : FVec F S1024x8 .f32) (main_arg6 : FVec F S1024 .f32) (main_arg7 : FVec F S1x8 .f32) (main_arg8 : FVec F S1024 .f32) (main_arg9 : FVec F S1024 .f32) (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S1024x8 .f32 := Host.absf main_arg5
  let main_cst_8 : FVec F S_ .f32 := constant S_ .f32 0x7F800000#32
  let main_v25 : FVec F S1024x8 .f32 := broadcastInDim S1024x8 ![] bcast_S_S1024x8 main_cst_8
  let main_v26 : IVec S1024x8 1 := cmpf .olt main_v24 main_v25
  let main_c_9 : IVec S_ 1 := constantI S_ 1 1#1
  let main_v27 : IVec S_ 1 := (fun x v => Host.reduce IntOp.andi x v reducesTo_S1024x8_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S2x128x196x1024 .f32) (main_arg1 : FVec F S2048x1024 .f32) (main_arg2 : FVec F S2048 .f32) (main_arg3 : FVec F S8x2048 .f32) (main_arg4 : FVec F S8 .f32) (main_arg5 : FVec F S1024x8 .f32) (main_arg6 : FVec F S1024 .f32) (main_arg7 : FVec F S1x8 .f32) (main_arg8 : FVec F S1024 .f32) (main_arg9 : FVec F S1024 .f32) : IVec S_ 1 :=
  let main_v0 : FVec F S2x128x196x1024 .f32 := Host.absf main_arg0
  let main_cst : FVec F S_ .f32 := constant S_ .f32 0x7F800000#32
  let main_v1 : FVec F S2x128x196x1024 .f32 := broadcastInDim S2x128x196x1024 ![] bcast_S_S2x128x196x1024 main_cst
  let main_v2 : IVec S2x128x196x1024 1 := cmpf .olt main_v0 main_v1
  let main_c : IVec S_ 1 := constantI S_ 1 1#1
  let main_v3 : IVec S_ 1 := (fun x v => Host.reduce IntOp.andi x v reducesTo_S2x128x196x1024_S_d0_1_2_3 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S8x2048 .f32 := Host.absf main_arg3
  let main_cst_4 : FVec F S_ .f32 := constant S_ .f32 0x7F800000#32
  let main_v15 : FVec F S8x2048 .f32 := broadcastInDim S8x2048 ![] bcast_S_S8x2048 main_cst_4
  let main_v16 : IVec S8x2048 1 := cmpf .olt main_v14 main_v15
  fn_part1 (F := F) main_arg4 main_arg5 main_arg6 main_arg7 main_arg8 main_arg9 main_v13 main_v16
-- ==== Kernel.lean ====
abbrev S2x128x196x1024 : Shape := ⟨4, ![2, 128, 196, 1024]⟩
abbrev S2048x1024 : Shape := ⟨2, ![2048, 1024]⟩
abbrev S2048 : Shape := ⟨1, ![2048]⟩
abbrev S8x2048 : Shape := ⟨2, ![8, 2048]⟩
abbrev S8 : Shape := ⟨1, ![8]⟩
abbrev S1024x8 : Shape := ⟨2, ![1024, 8]⟩
abbrev S1024 : Shape := ⟨1, ![1024]⟩
abbrev S1x8 : Shape := ⟨2, ![1, 8]⟩
abbrev S50176x1024 : Shape := ⟨2, ![50176, 1024]⟩
abbrev S1024x2048 : Shape := ⟨2, ![1024, 2048]⟩
abbrev S2048x8 : Shape := ⟨2, ![2048, 8]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩
abbrev S1x2048 : Shape := ⟨2, ![1, 2048]⟩
abbrev S256x8 : Shape := ⟨2, ![256, 8]⟩

abbrev nBuf : Space → Nat
  | .hbm => 19
  | .vmem => 13
  | .smem => 0
  | _ => 0

abbrev bufTy : (tb : Table) → Fin (tcTables nBuf tb) → BufTy
  | .hbm, ⟨0, _⟩ => ⟨S2x128x196x1024, .f32⟩
  | .hbm, ⟨1, _⟩ => ⟨S2048x1024, .f32⟩
  | .hbm, ⟨2, _⟩ => ⟨S2048, .f32⟩
  | .hbm, ⟨3, _⟩ => ⟨S8x2048, .f32⟩
  | .hbm, ⟨4, _⟩ => ⟨S8, .f32⟩
  | .hbm, ⟨5, _⟩ => ⟨S1024x8, .f32⟩
  | .hbm, ⟨6, _⟩ => ⟨S1024, .f32⟩
  | .hbm, ⟨7, _⟩ => ⟨S1x8, .f32⟩
  | .hbm, ⟨8, _⟩ => ⟨S1024, .f32⟩
  | .hbm, ⟨9, _⟩ => ⟨S1024, .f32⟩
  | .hbm, ⟨10, _⟩ => ⟨S50176x1024, .f32⟩
  | .hbm, ⟨11, _⟩ => ⟨S1024x2048, .f32⟩
  | .hbm, ⟨12, _⟩ => ⟨S1024x2048, .bf16⟩
  | .hbm, ⟨13, _⟩ => ⟨S2048x8, .f32⟩
  | .hbm, ⟨14, _⟩ => ⟨S2048x8, .bf16⟩
  | .hbm, ⟨15, _⟩ => ⟨S8x1024, .f32⟩
  | .hbm, ⟨16, _⟩ => ⟨S8x1024, .bf16⟩
  | .hbm, ⟨17, _⟩ => ⟨S50176x1024, .f32⟩
  | .hbm, ⟨18, _⟩ => ⟨S2x128x196x1024, .f32⟩
  | .local _ .vmem, ⟨0, _⟩ => ⟨S256x1024, .f32⟩
  | .local _ .vmem, ⟨1, _⟩ => ⟨S256x1024, .f32⟩
  | .local _ .vmem, ⟨2, _⟩ => ⟨S1024x2048, .bf16⟩
  | .local _ .vmem, ⟨3, _⟩ => ⟨S2048, .f32⟩
  | .local _ .vmem, ⟨4, _⟩ => ⟨S2048x8, .bf16⟩
  | .local _ .vmem, ⟨5, _⟩ => ⟨S8, .f32⟩
  | .local _ .vmem, ⟨6, _⟩ => ⟨S8x1024, .bf16⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S1x8, .f32⟩
  | .local _ .vmem, ⟨11, _⟩ => ⟨S256x1024, .f32⟩
  | .local _ .vmem, ⟨12, _⟩ => ⟨S256x1024, .f32⟩
  | _, _ => ⟨S2x128x196x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S2x128x196x1024_S50176x1024 : S2x128x196x1024.ShapeCasts S50176x1024
  transposes_S2048x1024_S1024x2048_1_0 : S2048x1024.Transposes [1, 0] S1024x2048
  bitsLt_bf16_f32 : FTy.bits .bf16 < FTy.bits .f32
  transposes_S8x2048_S2048x8_1_0 : S8x2048.Transposes [1, 0] S2048x8
  transposes_S1024x8_S8x1024_1_0 : S1024x8.Transposes [1, 0] S8x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  broadcasts_S256x1_S256x1024 : S256x1.Broadcasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S256x2048 : S1x2048.Broadcasts S256x2048
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S8_S8_0 : ∀ a, (![0] : Fin 1 → Nat) a + S8.size a ≤ S8.size a
  h_S8 : 0 < S8.numel
  shapeCasts_S8_S1x8 : S8.ShapeCasts S1x8
  broadcasts_S1x8_S256x8 : S1x8.Broadcasts S256x8
  inb_S1x8_S1x8_0_0 : ∀ a, (![0, 0] : Fin 2 → Nat) a + S1x8.size a ≤ S1x8.size a
  h_S1x8 : 0 < S1x8.numel
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S50176x1024_S2x128x196x1024 : S50176x1024.ShapeCasts S2x128x196x1024
  dot_S256x1024_S1024x2048_S256x2048_1_0_0_1_n_n_wf : DotDims.WF S256x1024 S1024x2048 S256x2048 [1] [0] [0] [1] [] []
  dot_S256x2048_S2048x8_S256x8_1_0_0_1_n_n_wf : DotDims.WF S256x2048 S2048x8 S256x8 [1] [0] [0] [1] [] []
  dot_S256x8_S8x1024_S256x1024_1_0_0_1_n_n_wf : DotDims.WF S256x8 S8x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S50176x1024.size a
  hwx0_0 : ∀ i : grid0.Coords, EltTy.bits .f32 = 32 ∨ (Rect.block (s := S50176x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x8.size a ≤ S2048x8.size a
  hwx0_3 : ∀ i : grid0.Coords, EltTy.bits .bf16 = 32 ∨ (Rect.block (s := S2048x8) S2048x8.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8.size a ≤ S8.size a
  hwx0_4 : ∀ i : grid0.Coords, EltTy.bits .f32 = 32 ∨ (Rect.block (s := S8) S8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S8x1024.size a
  hwx0_5 : ∀ i : grid0.Coords, EltTy.bits .bf16 = 32 ∨ (Rect.block (s := S8x1024) S8x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x8.size a ≤ S1x8.size a
  hwx0_9 : ∀ i : grid0.Coords, EltTy.bits .f32 = 32 ∨ (Rect.block (s := S1x8) S1x8.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S50176x1024.size a
  hwx0_10 : ∀ i : grid0.Coords, EltTy.bits .f32 = 32 ∨ (Rect.block (s := S50176x1024) S256x1024.size (cc0_transform_10 i) (hinb0_10 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x8_S256x8_1_0_0_1_n_n : DotDims S256x2048 S2048x8 S256x8 where
  lhsContracting := [1]
  rhsContracting := [0]
  lhsNonContracting := [0]
  rhsNonContracting := [1]
  lhsBatch := []
  rhsBatch := []
  wf := dot_S256x2048_S2048x8_S256x8_1_0_0_1_n_n_wf
def dot_S256x8_S8x1024_S256x1024_1_0_0_1_n_n : DotDims S256x8 S8x1024 S256x1024 where
  lhsContracting := [1]
  rhsContracting := [0]
  lhsNonContracting := [0]
  rhsNonContracting := [1]
  lhsBatch := []
  rhsBatch := []
  wf := dot_S256x8_S8x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S8x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S1x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2x128x196x1024 : Shape := ⟨4, ![2, 128, 196, 1024]⟩
abbrev S2048x1024 : Shape := ⟨2, ![2048, 1024]⟩
abbrev S2048 : Shape := ⟨1, ![2048]⟩
abbrev S8x2048 : Shape := ⟨2, ![8, 2048]⟩
abbrev S8 : Shape := ⟨1, ![8]⟩
abbrev S1024x8 : Shape := ⟨2, ![1024, 8]⟩
abbrev S1024 : Shape := ⟨1, ![1024]⟩
abbrev S1x8 : Shape := ⟨2, ![1, 8]⟩
abbrev S_ : Shape := ⟨0, ![]⟩
abbrev S2x128x196 : Shape := ⟨3, ![2, 128, 196]⟩
abbrev S2x128x196x1 : Shape := ⟨4, ![2, 128, 196, 1]⟩
abbrev S1x1x1x1024 : Shape := ⟨4, ![1, 1, 1, 1024]⟩
abbrev S2x128x196x2048 : Shape := ⟨4, ![2, 128, 196, 2048]⟩
abbrev S1x1x1x2048 : Shape := ⟨4, ![1, 1, 1, 2048]⟩
abbrev S2x128x196x8 : Shape := ⟨4, ![2, 128, 196, 8]⟩
abbrev S1x1x1x8 : Shape := ⟨4, ![1, 1, 1, 8]⟩

abbrev nBuf : Space → Nat
  | .hbm => 73
  | .vmem => 0
  | .smem => 0
  | _ => 0

abbrev bufTy : (tb : Table) → Fin (tcTables nBuf tb) → BufTy
  | .hbm, ⟨0, _⟩ => ⟨S2x128x196x1024, .f32⟩
  | .hbm, ⟨1, _⟩ => ⟨S2048x1024, .f32⟩
  | .hbm, ⟨2, _⟩ => ⟨S2048, .f32⟩
  | .hbm, ⟨3, _⟩ => ⟨S8x2048, .f32⟩
  | .hbm, ⟨4, _⟩ => ⟨S8, .f32⟩
  | .hbm, ⟨5, _⟩ => ⟨S1024x8, .f32⟩
  | .hbm, ⟨6, _⟩ => ⟨S1024, .f32⟩
  | .hbm, ⟨7, _⟩ => ⟨S1x8, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S2x128x196, .f32⟩
  | .hbm, ⟨12, _⟩ => ⟨S2x128x196x1, .f32⟩
  | .hbm, ⟨13, _⟩ => ⟨S_, .f32⟩
  | .hbm, ⟨14, _⟩ => ⟨S2x128x196x1, .f32⟩
  | .hbm, ⟨15, _⟩ => ⟨S2x128x196x1, .f32⟩
  | .hbm, ⟨16, _⟩ => ⟨S2x128x196x1024, .f32⟩
  | .hbm, ⟨17, _⟩ => ⟨S2x128x196x1024, .f32⟩
  | .hbm, ⟨18, _⟩ => ⟨S2x128x196x1024, .f32⟩
  | .hbm, ⟨19, _⟩ => ⟨S_, .f32⟩
  | .hbm, ⟨20, _⟩ => ⟨S2x128x196, .f32⟩
  | .hbm, ⟨21, _⟩ => ⟨S2x128x196x1, .f32⟩
  | .hbm, ⟨22, _⟩ => ⟨S_, .f32⟩
  | .hbm, ⟨23, _⟩ => ⟨S2x128x196x1, .f32⟩
  | .hbm, ⟨24, _⟩ => ⟨S2x128x196x1, .f32⟩
  | .hbm, ⟨25, _⟩ => ⟨S2x128x196x1024, .f32⟩
  | .hbm, ⟨26, _⟩ => ⟨S2x128x196x1024, .f32⟩
  | .hbm, ⟨27, _⟩ => ⟨S_, .f32⟩
  | .hbm, ⟨28, _⟩ => ⟨S2x128x196x1, .f32⟩
  | .hbm, ⟨29, _⟩ => ⟨S2x128x196x1, .f32⟩
  | .hbm, ⟨30, _⟩ => ⟨S2x128x196x1, .f32⟩
  | .hbm, ⟨31, _⟩ => ⟨S2x128x196x1024, .f32⟩
  | .hbm, ⟨32, _⟩ => ⟨S2x128x196x1024, .f32⟩
  | .hbm, ⟨33, _⟩ => ⟨S1x1x1x1024, .f32⟩
  | .hbm, ⟨34, _⟩ => ⟨S2x128x196x1024, .f32⟩
  | .hbm, ⟨35, _⟩ => ⟨S2x128x196x1024, .f32⟩
  | .hbm, ⟨36, _⟩ => ⟨S1x1x1x1024, .f32⟩
  | .hbm, ⟨37, _⟩ => ⟨S2x128x196x1024, .f32⟩
  | .hbm, ⟨38, _⟩ => ⟨S2x128x196x1024, .f32⟩
  | .hbm, ⟨39, _⟩ => ⟨S2x128x196x2048, .f32⟩
  | .hbm, ⟨40, _⟩ => ⟨S1x1x1x2048, .f32⟩
  | .hbm, ⟨41, _⟩ => ⟨S2x128x196x2048, .f32⟩
  | .hbm, ⟨42, _⟩ => ⟨S2x128x196x2048, .f32⟩
  | .hbm, ⟨43, _⟩ => ⟨S2x128x196x2048, .f32⟩
  | .hbm, ⟨44, _⟩ => ⟨S2x128x196x2048, .f32⟩
  | .hbm, ⟨45, _⟩ => ⟨S_, .f32⟩
  | .hbm, ⟨46, _⟩ => ⟨S2x128x196x2048, .f32⟩
  | .hbm, ⟨47, _⟩ => ⟨S2x128x196x2048, .f32⟩
  | .hbm, ⟨48, _⟩ => ⟨S_, .f32⟩
  | .hbm, ⟨49, _⟩ => ⟨S2x128x196x2048, .f32⟩
  | .hbm, ⟨50, _⟩ => ⟨S2x128x196x2048, .f32⟩
  | .hbm, ⟨51, _⟩ => ⟨S2x128x196x2048, .f32⟩
  | .hbm, ⟨52, _⟩ => ⟨S2x128x196x8, .f32⟩
  | .hbm, ⟨53, _⟩ => ⟨S1x1x1x8, .f32⟩
  | .hbm, ⟨54, _⟩ => ⟨S2x128x196x8, .f32⟩
  | .hbm, ⟨55, _⟩ => ⟨S2x128x196x8, .f32⟩
  | .hbm, ⟨56, _⟩ => ⟨S1x1x1x8, .f32⟩
  | .hbm, ⟨57, _⟩ => ⟨S2x128x196x8, .f32⟩
  | .hbm, ⟨58, _⟩ => ⟨S2x128x196x8, .f32⟩
  | .hbm, ⟨59, _⟩ => ⟨S2x128x196x8, .f32⟩
  | .hbm, ⟨60, _⟩ => ⟨S2x128x196x8, .f32⟩
  | .hbm, ⟨61, _⟩ => ⟨S_, .f32⟩
  | .hbm, ⟨62, _⟩ => ⟨S2x128x196x8, .f32⟩
  | .hbm, ⟨63, _⟩ => ⟨S2x128x196x8, .f32⟩
  | .hbm, ⟨64, _⟩ => ⟨S_, .f32⟩
  | .hbm, ⟨65, _⟩ => ⟨S2x128x196x8, .f32⟩
  | .hbm, ⟨66, _⟩ => ⟨S2x128x196x8, .f32⟩
  | .hbm, ⟨67, _⟩ => ⟨S2x128x196x8, .f32⟩
  | .hbm, ⟨68, _⟩ => ⟨S2x128x196x1024, .f32⟩
  | .hbm, ⟨69, _⟩ => ⟨S1x1x1x1024, .f32⟩
  | .hbm, ⟨70, _⟩ => ⟨S2x128x196x1024, .f32⟩
  | .hbm, ⟨71, _⟩ => ⟨S2x128x196x1024, .f32⟩
  | .hbm, ⟨72, _⟩ => ⟨S2x128x196x1024, .f32⟩
  | _, _ => ⟨S2x128x196x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩

abbrev nD : Nat := 1
abbrev τ : Topo := Topo.v7x

variable {F : FTy → Type} [FloatOps F]

class Facts₀ : Prop where
  reducesTo_S2x128x196x1024_S2x128x196_d3 : S2x128x196x1024.ReducesTo [3] S2x128x196
  h_S_ : 0 < S_.numel
  bcast_S2x128x196_S2x128x196x1_0_1_2 : S2x128x196.BroadcastsInDim S2x128x196x1 (![0, 1, 2] : Fin 3 → Fin S2x128x196x1.rank)
  bcast_S_S2x128x196x1 : S_.BroadcastsInDim S2x128x196x1 (![] : Fin 0 → Fin S2x128x196x1.rank)
  bcast_S2x128x196x1_S2x128x196x1024_0_1_2_3 : S2x128x196x1.BroadcastsInDim S2x128x196x1024 (![0, 1, 2, 3] : Fin 4 → Fin S2x128x196x1024.rank)
  bcast_S1024_S1x1x1x1024_3 : S1024.BroadcastsInDim S1x1x1x1024 (![3] : Fin 1 → Fin S1x1x1x1024.rank)
  bcast_S1x1x1x1024_S2x128x196x1024_0_1_2_3 : S1x1x1x1024.BroadcastsInDim S2x128x196x1024 (![0, 1, 2, 3] : Fin 4 → Fin S2x128x196x1024.rank)
  bcast_S2048_S1x1x1x2048_3 : S2048.BroadcastsInDim S1x1x1x2048 (![3] : Fin 1 → Fin S1x1x1x2048.rank)
  bcast_S1x1x1x2048_S2x128x196x2048_0_1_2_3 : S1x1x1x2048.BroadcastsInDim S2x128x196x2048 (![0, 1, 2, 3] : Fin 4 → Fin S2x128x196x2048.rank)
  bcast_S_S2x128x196x2048 : S_.BroadcastsInDim S2x128x196x2048 (![] : Fin 0 → Fin S2x128x196x2048.rank)
  bcast_S8_S1x1x1x8_3 : S8.BroadcastsInDim S1x1x1x8 (![3] : Fin 1 → Fin S1x1x1x8.rank)
  bcast_S1x1x1x8_S2x128x196x8_0_1_2_3 : S1x1x1x8.BroadcastsInDim S2x128x196x8 (![0, 1, 2, 3] : Fin 4 → Fin S2x128x196x8.rank)
  shapeCasts_S1x8_S1x1x1x8 : S1x8.ShapeCasts S1x1x1x8
  bcast_S_S2x128x196x8 : S_.BroadcastsInDim S2x128x196x8 (![] : Fin 0 → Fin S2x128x196x8.rank)
  dot_S2x128x196x1024_S2048x1024_S2x128x196x2048_3_1_012_0_n_n_wf : DotDims.WF S2x128x196x1024 S2048x1024 S2x128x196x2048 [3] [1] [0, 1, 2] [0] [] []
  dot_S2x128x196x2048_S8x2048_S2x128x196x8_3_1_012_0_n_n_wf : DotDims.WF S2x128x196x2048 S8x2048 S2x128x196x8 [3] [1] [0, 1, 2] [0] [] []
  dot_S2x128x196x8_S1024x8_S2x128x196x1024_3_1_012_0_n_n_wf : DotDims.WF S2x128x196x8 S1024x8 S2x128x196x1024 [3] [1] [0, 1, 2] [0] [] []

variable [Facts₀]

def dot_S2x128x196x1024_S2048x1024_S2x128x196x2048_3_1_012_0_n_n : DotDims S2x128x196x1024 S2048x1024 S2x128x196x2048 where
  lhsContracting := [3]
  rhsContracting := [1]
  lhsNonContracting := [0, 1, 2]
  rhsNonContracting := [0]
  lhsBatch := []
  rhsBatch := []
  wf := dot_S2x128x196x1024_S2048x1024_S2x128x196x2048_3_1_012_0_n_n_wf
def dot_S2x128x196x2048_S8x2048_S2x128x196x8_3_1_012_0_n_n : DotDims S2x128x196x2048 S8x2048 S2x128x196x8 where
  lhsContracting := [3]
  rhsContracting := [1]
  lhsNonContracting := [0, 1, 2]
  rhsNonContracting := [0]
  lhsBatch := []
  rhsBatch := []
  wf := dot_S2x128x196x2048_S8x2048_S2x128x196x8_3_1_012_0_n_n_wf
def dot_S2x128x196x8_S1024x8_S2x128x196x1024_3_1_012_0_n_n : DotDims S2x128x196x8 S1024x8 S2x128x196x1024 where
  lhsContracting := [3]
  rhsContracting := [1]
  lhsNonContracting := [0, 1, 2]
  rhsNonContracting := [0]
  lhsBatch := []
  rhsBatch := []
  wf := dot_S2x128x196x8_S1024x8_S2x128x196x1024_3_1_012_0_n_n_wf

class Facts : Prop extends Facts₀ where

variable [Facts]
-- ==== Proof.Spec.lean ====
/-
  What one row of the network computes, on the extended reals, and the whole result array built from it.

  A row x of 1024 entries is centred on its mean and scaled by the reciprocal square root of its variance plus a
  small constant, then multiplied entry by entry by γ and shifted by β.  The normalised row is sent through three
  dense layers: 1024 → 2048 with the gate z ↦ z · 1/(1 + exp (-z)), 2048 → 8 with a bias, an added initial state and
  the same gate, and 8 → 1024 with a bias; the result is added back to the row.  Every weight matrix is stored with
  one row per output unit, so a layer's output e is the sum over k of the input k times weight (e, k).

  The result array has one such row for each of the 2 · 128 · 196 leading positions of the input.
-/
import Idealize.ShloMosaic.PureOps.Ideal
import Idealize.ShloMosaic.Lib.ValueIdx

noncomputable section

open scoped BigOperators

namespace Cert.Spec

open Idealize.ShloMosaic Idealize.ShloMosaic.ValueIdx

/-- The mean of a row: its sum divided by 1024. -/
def mean (x : Fin 1024 → EReal) : EReal :=
  Ideal.div (∑ k : Fin 1024, x k) (Ideal.ofBits .f32 0x44800000#32)

/-- An entry of the row, centred on the mean. -/
def cen (x : Fin 1024 → EReal) (k : Fin 1024) : EReal := x k - mean x

/-- The variance of a row: the sum of the squared centred entries divided by 1024. -/
def var (x : Fin 1024 → EReal) : EReal :=
  Ideal.div (∑ k : Fin 1024, cen x k * cen x k) (Ideal.ofBits .f32 0x44800000#32)

/-- The scale of a row: the reciprocal square root of the variance plus the small constant. -/
def scale (x : Fin 1024 → EReal) : EReal :=
  Ideal.rsqrt (var x + Ideal.ofBits .f32 0x3727C5AC#32)

/-- The normalised row: centred, scaled, multiplied by γ and shifted by β. -/
def normed (x γ β : Fin 1024 → EReal) (k : Fin 1024) : EReal := cen x k * scale x * γ k + β k

/-- The gate z · 1/(1 + exp (-z)). -/
def gate (z : EReal) : EReal :=
  z * Ideal.div (Ideal.ofBits .f32 0x3F800000#32) (Ideal.ofBits .f32 0x3F800000#32 + Ideal.exp (-z))

/-- The first layer, 1024 → 2048, gated. -/
def proj (x γ β : Fin 1024 → EReal) (Wp : Fin 2048 → Fin 1024 → EReal) (bp : Fin 2048 → EReal) (e : Fin 2048) : EReal :=
  gate ((∑ k : Fin 1024, normed x γ β k * Wp e k) + bp e)

/-- The second layer, 2048 → 8, with its bias and the initial state added, gated. -/
def state (x γ β : Fin 1024 → EReal) (Wp : Fin 2048 → Fin 1024 → EReal) (bp : Fin 2048 → EReal)
    (Ws : Fin 8 → Fin 2048 → EReal) (bs s0 : Fin 8 → EReal) (n : Fin 8) : EReal :=
  gate (((∑ e : Fin 2048, proj x γ β Wp bp e * Ws n e) + bs n) + s0 n)

/-- The third layer, 8 → 1024, with its bias, added back to the row. -/
def out (x γ β : Fin 1024 → EReal) (Wp : Fin 2048 → Fin 1024 → EReal) (bp : Fin 2048 → EReal)
    (Ws : Fin 8 → Fin 2048 → EReal) (bs s0 : Fin 8 → EReal) (Wo : Fin 1024 → Fin 8 → EReal) (bo : Fin 1024 → EReal)
    (d : Fin 1024) : EReal :=
  x d + ((∑ n : Fin 8, state x γ β Wp bp Ws bs s0 n * Wo d n) + bo d)

/-- The result at position (b, s, p) and channel d, from the argument arrays: the row function of row (b, s, p) of x. -/
def entry (x : (⟨4, ![2, 128, 196, 1024]⟩ : Shape).Idx → EReal) (Wp : (⟨2, ![2048, 1024]⟩ : Shape).Idx → EReal)
    (bp : (⟨1, ![2048]⟩ : Shape).Idx → EReal) (Ws : (⟨2, ![8, 2048]⟩ : Shape).Idx → EReal)
    (bs : (⟨1, ![8]⟩ : Shape).Idx → EReal) (Wo : (⟨2, ![1024, 8]⟩ : Shape).Idx → EReal)
    (bo : (⟨1, ![1024]⟩ : Shape).Idx → EReal) (s0 : (⟨2, ![1, 8]⟩ : Shape).Idx → EReal)
    (γ β : (⟨1, ![1024]⟩ : Shape).Idx → EReal) (b : Fin 2) (s : Fin 128) (p : Fin 196) (d : Fin 1024) : EReal :=
  out (fun k => x (ix4 b s p k)) (fun k => γ (ix1 k)) (fun k => β (ix1 k)) (fun e k => Wp (ix2 e k))
    (fun e => bp (ix1 e)) (fun n e => Ws (ix2 n e)) (fun n => bs (ix1 n)) (fun n => s0 (ix2 (0 : Fin 1) n))
    (fun c n => Wo (ix2 c n)) (fun c => bo (ix1 c)) d

/-- The whole result array. -/
def result (x : (⟨4, ![2, 128, 196, 1024]⟩ : Shape).Idx → EReal) (Wp : (⟨2, ![2048, 1024]⟩ : Shape).Idx → EReal)
    (bp : (⟨1, ![2048]⟩ : Shape).Idx → EReal) (Ws : (⟨2, ![8, 2048]⟩ : Shape).Idx → EReal)
    (bs : (⟨1, ![8]⟩ : Shape).Idx → EReal) (Wo : (⟨2, ![1024, 8]⟩ : Shape).Idx → EReal)
    (bo : (⟨1, ![1024]⟩ : Shape).Idx → EReal) (s0 : (⟨2, ![1, 8]⟩ : Shape).Idx → EReal)
    (γ β : (⟨1, ![1024]⟩ : Shape).Idx → EReal) : (⟨4, ![2, 128, 196, 1024]⟩ : Shape).Idx → EReal :=
  fun i => entry x Wp bp Ws bs Wo bo s0 γ β ⟨(i 0).val, (i 0).isLt⟩ ⟨(i 1).val, (i 1).isLt⟩ ⟨(i 2).val, (i 2).isLt⟩
    ⟨(i 3).val, (i 3).isLt⟩

theorem result_apply (x : (⟨4, ![2, 128, 196, 1024]⟩ : Shape).Idx → EReal) (Wp : (⟨2, ![2048, 1024]⟩ : Shape).Idx → EReal)
    (bp : (⟨1, ![2048]⟩ : Shape).Idx → EReal) (Ws : (⟨2, ![8, 2048]⟩ : Shape).Idx → EReal)
    (bs : (⟨1, ![8]⟩ : Shape).Idx → EReal) (Wo : (⟨2, ![1024, 8]⟩ : Shape).Idx → EReal)
    (bo : (⟨1, ![1024]⟩ : Shape).Idx → EReal) (s0 : (⟨2, ![1, 8]⟩ : Shape).Idx → EReal)
    (γ β : (⟨1, ![1024]⟩ : Shape).Idx → EReal) (b : Fin 2) (s : Fin 128) (p : Fin 196) (d : Fin 1024) :
    result x Wp bp Ws bs Wo bo s0 γ β (ix4 b s p d) = entry x Wp bp Ws bs Wo bo s0 γ β b s p d := rfl

end Cert.Spec

end
-- ==== Proof.RefValue.lean ====
/-
  The reference program, read one operation at a time, computes the specification's row function.

  Every lemma fixes a position (b, s, p) and reads one stage of the reference at a channel index: the mean, the
  centred entry, the variance, the scale, the normalised entry, then the three dense layers with their gates.  Each
  stage is one reduction or contraction, or a few entrywise operations, on top of the stage before it, so that every
  step is the reading of an operation at an index, the identification of an index by its coordinates, 0 + x = x for a
  sum that starts from zero, and once the commutativity of +.
-/
import proofs.«123422_j88467736363285_1_alg».proof.Proof.Gen.ReferenceIdeal.Read
import proofs.«123422_j88467736363285_1_alg».proof.Proof.Spec

noncomputable section

open scoped BigOperators

namespace Cert.RefValue

open Idealize.ShloMosaic Idealize.ShloMosaic.ValueIdx Cert.ReferenceIdeal Cert.ReferenceIdeal.Read

/-- Two indices of rank 4 with the same four coordinates are equal. -/
local macro "idx4" : tactic =>
  `(tactic| exact funext fun a => Fin.ext (by match a with | ⟨0, _⟩ => rfl | ⟨1, _⟩ => rfl | ⟨2, _⟩ => rfl | ⟨3, _⟩ => rfl))
/-- Two indices of rank 2 with the same two coordinates are equal. -/
local macro "idx2" : tactic =>
  `(tactic| exact funext fun a => Fin.ext (by match a with | ⟨0, _⟩ => rfl | ⟨1, _⟩ => rfl))
/-- Two indices of rank 1 with the same coordinate are equal. -/
local macro "idx1" : tactic =>
  `(tactic| exact funext fun a => Fin.ext (by match a with | ⟨0, _⟩ => rfl))

variable (x0 : (⟨S2x128x196x1024, .f32⟩ : BufTy).Contents (Elt Ideal)) (x1 : (⟨S2048x1024, .f32⟩ : BufTy).Contents (Elt Ideal))
  (x2 : (⟨S2048, .f32⟩ : BufTy).Contents (Elt Ideal)) (x3 : (⟨S8x2048, .f32⟩ : BufTy).Contents (Elt Ideal))
  (x4 : (⟨S8, .f32⟩ : BufTy).Contents (Elt Ideal)) (x5 : (⟨S1024x8, .f32⟩ : BufTy).Contents (Elt Ideal))
  (x6 : (⟨S1024, .f32⟩ : BufTy).Contents (Elt Ideal)) (x7 : (⟨S1x8, .f32⟩ : BufTy).Contents (Elt Ideal))
  (x8 x9 : (⟨S1024, .f32⟩ : BufTy).Contents (Elt Ideal))

/-- The row of the input at position (b, s, p). -/
abbrev row (b : Fin 2) (s : Fin 128) (p : Fin 196) : Fin 1024 → EReal := fun k => x0 (ix4 b s p k)

/-- The first reduction divided by 1024 is the mean of the row. -/
theorem mean_eq (b : Fin 2) (s : Fin 128) (p : Fin 196) :
    val_main_v3 (F := Ideal) x0 (ix4 b s p (0 : Fin 1)) = Spec.mean (row x0 b s p) := by
  rw [val_main_v3_apply, val_main_v1_apply, val_main_v0_apply, val_main_v2_apply, val_main_cst_0_apply,
    val_main_cst_apply]
  show Ideal.div (Ideal.ofBits .f32 0x00000000#32 + _) _ = _
  rw [Ideal.ofBits_zero_f32, zero_add]
  refine congrArg (Ideal.div · _) (Finset.sum_congr rfl fun k _ => congrArg x0 ?_)
  idx4

/-- The first subtraction is the centred entry. -/
theorem cen_eq (b : Fin 2) (s : Fin 128) (p : Fin 196) (k : Fin 1024) :
    val_main_v5 (F := Ideal) x0 (ix4 b s p k) = Spec.cen (row x0 b s p) k := by
  rw [val_main_v5_apply, val_main_v4_apply]
  have h : idx_main_v4 (ix4 b s p k) = ix4 b s p (0 : Fin 1) := by idx4
  rw [h, mean_eq]
  rfl

/-- The second subtraction is the centred entry again. -/
theorem cen_eq' (b : Fin 2) (s : Fin 128) (p : Fin 196) (k : Fin 1024) :
    val_main_v12 (F := Ideal) x0 (ix4 b s p k) = Spec.cen (row x0 b s p) k := by
  rw [val_main_v12_apply, val_main_v11_apply]
  have h : idx_main_v11 (ix4 b s p k) = ix4 b s p (0 : Fin 1) := by idx4
  rw [h, mean_eq]
  rfl

/-- The second reduction divided by 1024 is the variance of the row. -/
theorem var_eq (b : Fin 2) (s : Fin 128) (p : Fin 196) :
    val_main_v10 (F := Ideal) x0 (ix4 b s p (0 : Fin 1)) = Spec.var (row x0 b s p) := by
  rw [val_main_v10_apply, val_main_v8_apply, val_main_v7_apply, val_main_v9_apply, val_main_cst_2_apply,
    val_main_cst_1_apply]
  show Ideal.div (Ideal.ofBits .f32 0x00000000#32 + _) _ = _
  rw [Ideal.ofBits_zero_f32, zero_add]
  refine congrArg (Ideal.div · _) (Finset.sum_congr rfl fun k _ => ?_)
  have h : idx_main_v7 (idx_main_v8 (ix4 b s p (0 : Fin 1))) k = ix4 b s p k := by idx4
  rw [h, val_main_v6_apply, cen_eq]
  rfl

/-- The reciprocal square root of the variance plus the small constant is the scale of the row. -/
theorem scale_eq (b : Fin 2) (s : Fin 128) (p : Fin 196) :
    val_main_v15 (F := Ideal) x0 (ix4 b s p (0 : Fin 1)) = Spec.scale (row x0 b s p) := by
  rw [val_main_v15_apply, val_main_v14_apply, val_main_v13_apply, val_main_cst_3_apply, var_eq]
  rfl

/-- The centred entry times the scale, times γ, plus β is the normalised entry. -/
theorem normed_eq (b : Fin 2) (s : Fin 128) (p : Fin 196) (k : Fin 1024) :
    val_main_v23 (F := Ideal) x0 x8 x9 (ix4 b s p k)
      = Spec.normed (row x0 b s p) (fun k => x8 (ix1 k)) (fun k => x9 (ix1 k)) k := by
  rw [val_main_v23_apply, val_main_v20_apply, val_main_v17_apply, val_main_v16_apply, val_main_v19_apply,
    val_main_v18_apply, val_main_v22_apply, val_main_v21_apply, cen_eq']
  have h16 : idx_main_v16 (ix4 b s p k) = ix4 b s p (0 : Fin 1) := by idx4
  have h18 : idx_main_v18 (idx_main_v19 (ix4 b s p k)) = ix1 k := by idx1
  have h21 : idx_main_v21 (idx_main_v22 (ix4 b s p k)) = ix1 k := by idx1
  rw [h16, h18, h21, scale_eq]
  rfl

/-- The first contraction plus its bias: the first layer before its gate. -/
theorem pre1_eq (b : Fin 2) (s : Fin 128) (p : Fin 196) (e : Fin 2048) :
    val_main_v27 (F := Ideal) x0 x1 x2 x8 x9 (ix4 b s p e)
      = (∑ k : Fin 1024, Spec.normed (row x0 b s p) (fun k => x8 (ix1 k)) (fun k => x9 (ix1 k)) k * x1 (ix2 e k))
        + x2 (ix1 e) := by
  rw [val_main_v27_apply, val_main_v24_apply, val_main_v26_apply, val_main_v25_apply]
  have h25 : idx_main_v25 (idx_main_v26 (ix4 b s p e)) = ix1 e := by idx1
  rw [h25]
  refine congrArg (· + _) (Finset.sum_congr rfl fun k _ => ?_)
  have hl : lidx_main_v24 (ix4 b s p e) k = ix4 b s p k := by idx4
  have hr : ridx_main_v24 (ix4 b s p e) k = ix2 e k := by idx2
  rw [hl, hr, normed_eq]

/-- The gate of the first layer: the first layer of the specification. -/
theorem proj_eq (b : Fin 2) (s : Fin 128) (p : Fin 196) (e : Fin 2048) :
    val_main_v28 (F := Ideal) x0 x1 x2 x8 x9 (ix4 b s p e)
      = Spec.proj (row x0 b s p) (fun k => x8 (ix1 k)) (fun k => x9 (ix1 k)) (fun e k => x1 (ix2 e k))
          (fun e => x2 (ix1 e)) e := by
  rw [val_main_v28_apply, val_main_call0_v5_apply, val_main_call0_v4_apply, val_main_call0_cst_0_apply,
    val_main_call0_v3_apply, val_main_call0_v2_apply, val_main_call0_cst_apply, val_main_call0_v1_apply,
    val_main_call0_v0_apply, pre1_eq]
  rfl

/-- The initial state plus the second contraction and its bias: the second layer before its gate. -/
theorem pre2_eq (b : Fin 2) (s : Fin 128) (p : Fin 196) (n : Fin 8) :
    val_main_v35 (F := Ideal) x0 x1 x2 x3 x4 x7 x8 x9 (ix4 b s p n)
      = ((∑ e : Fin 2048, Spec.proj (row x0 b s p) (fun k => x8 (ix1 k)) (fun k => x9 (ix1 k))
            (fun e k => x1 (ix2 e k)) (fun e => x2 (ix1 e)) e * x3 (ix2 n e)) + x4 (ix1 n))
        + x7 (ix2 (0 : Fin 1) n) := by
  rw [val_main_v35_apply, val_main_v34_apply, val_main_v33_apply, val_main_v32_apply, val_main_v29_apply,
    val_main_v31_apply, val_main_v30_apply]
  have h33 : idx_main_v33 (idx_main_v34 (ix4 b s p n)) = ix2 (0 : Fin 1) n :=
    funext fun a => Fin.ext (by
      match a with
      | ⟨0, _⟩ => rfl
      | ⟨1, _⟩ => show ((((0 : Nat) * 1 + 0) * 1 + 0) * 8 + n.val) % 8 = n.val; have := n.isLt; omega)
  have h30 : idx_main_v30 (idx_main_v31 (ix4 b s p n)) = ix1 n := by idx1
  rw [h33, h30]
  refine (add_comm _ _).trans (congrArg (· + _) (congrArg (· + _) (Finset.sum_congr rfl fun e _ => ?_)))
  have hl : lidx_main_v29 (ix4 b s p n) e = ix4 b s p e := by idx4
  have hr : ridx_main_v29 (ix4 b s p n) e = ix2 n e := by idx2
  rw [hl, hr, proj_eq]

/-- The gate of the second layer: the second layer of the specification. -/
theorem state_eq (b : Fin 2) (s : Fin 128) (p : Fin 196) (n : Fin 8) :
    val_main_v36 (F := Ideal) x0 x1 x2 x3 x4 x7 x8 x9 (ix4 b s p n)
      = Spec.state (row x0 b s p) (fun k => x8 (ix1 k)) (fun k => x9 (ix1 k)) (fun e k => x1 (ix2 e k))
          (fun e => x2 (ix1 e)) (fun n e => x3 (ix2 n e)) (fun n => x4 (ix1 n)) (fun n => x7 (ix2 (0 : Fin 1) n)) n := by
  rw [val_main_v36_apply, val_main_call1_v5_apply, val_main_call1_v4_apply, val_main_call1_cst_0_apply,
    val_main_call1_v3_apply, val_main_call1_v2_apply, val_main_call1_cst_apply, val_main_call1_v1_apply,
    val_main_call1_v0_apply, pre2_eq]
  rfl

/-- The row plus the third contraction and its bias: the result of the specification at (b, s, p) and channel d. -/
theorem out_eq (b : Fin 2) (s : Fin 128) (p : Fin 196) (d : Fin 1024) :
    val_main_v41 (F := Ideal) x0 x1 x2 x3 x4 x5 x6 x7 x8 x9 (ix4 b s p d)
      = Spec.entry x0 x1 x2 x3 x4 x5 x6 x7 x8 x9 b s p d := by
  rw [val_main_v41_apply, val_main_v40_apply, val_main_v37_apply, val_main_v39_apply, val_main_v38_apply]
  have h38 : idx_main_v38 (idx_main_v39 (ix4 b s p d)) = ix1 d := by idx1
  rw [h38]
  refine congrArg (x0 (ix4 b s p d) + ·) (congrArg (· + _) (Finset.sum_congr rfl fun n _ => ?_))
  have hl : lidx_main_v37 (ix4 b s p d) n = ix4 b s p n := by idx4
  have hr : ridx_main_v37 (ix4 b s p d) n = ix2 d n := by idx2
  rw [hl, hr, state_eq]

/-- The reference program computes the specification's result array. -/
theorem reference_eq (x0 : (⟨S2x128x196x1024, .f32⟩ : BufTy).Contents (Elt Ideal)) (x1 : (⟨S2048x1024, .f32⟩ : BufTy).Contents (Elt Ideal))
    (x2 : (⟨S2048, .f32⟩ : BufTy).Contents (Elt Ideal)) (x3 : (⟨S8x2048, .f32⟩ : BufTy).Contents (Elt Ideal))
    (x4 : (⟨S8, .f32⟩ : BufTy).Contents (Elt Ideal)) (x5 : (⟨S1024x8, .f32⟩ : BufTy).Contents (Elt Ideal))
    (x6 : (⟨S1024, .f32⟩ : BufTy).Contents (Elt Ideal)) (x7 : (⟨S1x8, .f32⟩ : BufTy).Contents (Elt Ideal))
    (x8 x9 : (⟨S1024, .f32⟩ : BufTy).Contents (Elt Ideal)) :
    val_main_v41 (F := Ideal) x0 x1 x2 x3 x4 x5 x6 x7 x8 x9 = Cert.Spec.result x0 x1 x2 x3 x4 x5 x6 x7 x8 x9 := by
  funext i
  obtain ⟨b, s, p, d, rfl⟩ : ∃ (b : Fin 2) (s : Fin 128) (p : Fin 196) (d : Fin 1024), i = ix4 b s p d :=
    ⟨i 0, i 1, i 2, i 3, eq_ix4 i⟩
  exact (out_eq x0 x1 x2 x3 x4 x5 x6 x7 x8 x9 b s p d).trans
    (Spec.result_apply x0 x1 x2 x3 x4 x5 x6 x7 x8 x9 b s p d).symm

end Cert.RefValue

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.BodyValue.lean ====
/-
  One block of the kernel is the specification's row function.

  The body of the kernel works on a block of 256 rows of x, each of 1024 entries, and on the whole of every weight
  array.  It sums each row and divides by 1024 (the mean), takes the mean off, sums the squares of what is left and
  divides by 1024 (the variance), multiplies the centred row by the reciprocal square root of the variance plus a small
  constant, by γ and adds β; then come three matrix products onto a zero array, each followed by its bias along the
  columns, the first two also by the gate z · 1/(1 + exp (0 - z)), the second with the initial state added before the
  gate; the last result is added to the block of x.  On the extended reals a rounding to a narrower format is the
  identity, a product onto the zero array is at (p, q) the sum over k of left (p, k) · right (k, q), a sum over the
  second axis is at row p the sum of that row, and a vector repeated along rows or columns reads its own entry.  So
  each array of the body, read at (p, ·), is the matching function of the specification applied to row p of the block,
  term for term and in the same order; the only rewriting is 0 - z = -z inside the gate.

  The arrays of the body are named below one operation group at a time (row average, centred block, row scale,
  normalised block, gate, the three layers); each gets one reading lemma; the kernel's three stored terms are these
  arrays by unfolding.
-/
import proofs.«123422_j88467736363285_1_alg».proof.Proof.Gen.KernelIdeal.Frame
import proofs.«123422_j88467736363285_1_alg».proof.Proof.Spec
import proofs.«123422_j88467736363285_1_alg».proof.Proof.LibRowOps
import proofs.«123422_j88467736363285_1_alg».proof.Proof.LibPlainMatmul

noncomputable section

open scoped BigOperators

namespace Cert.BodyValue

open Idealize.ShloMosaic Idealize.ShloMosaic.ValueIdx Cert.KernelIdeal Cert.KernelIdeal.Gen

/-! ## Two readings of a column -/

section Column
variable {α : Type}

/-- A column [a, 1] repeated along `b` columns reads at (p, q) the column's entry of row `p`. -/
theorem column_spread_apply {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector of `a` entries kept as a column [a, 1] reads at (p, 0) its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

end Column

/-! ## The row statistics -/

/-- The sum of each row of a block divided by 1024, kept as a column. -/
def rowAvg (w : FVec Ideal S256x1024 .f32) : FVec Ideal S256x1 .f32 :=
  divf (shapeCast S256x1 (multiReduction .add [1] S256 w 0x00000000#32 reduces_S256x1024_S256 (.inl rfl) rfl)
      shapeCasts_S256_S256x1)
    (broadcast S256x1 (Scalar.ofBits .f32 0x44800000#32))

theorem rowAvg_apply (w : FVec Ideal S256x1024 .f32) (p : Fin 256) :
    rowAvg w (ix2 p (0 : Fin 1)) = Ideal.div (∑ d : Fin 1024, w (ix2 p d)) (Ideal.ofBits .f32 0x44800000#32) := by
  show Ideal.div (shapeCast S256x1 _ shapeCasts_S256_S256x1 (ix2 p (0 : Fin 1))) (Ideal.ofBits .f32 0x44800000#32) = _
  refine congrArg (fun t => Ideal.div t (Ideal.ofBits .f32 0x44800000#32)) ?_
  refine (column_cast_apply _ _ p).trans ?_
  exact Cert.RowOps.sum_over_columns_apply w _ _ _ p

/-- The row average repeated along the row is the mean of the row. -/
theorem mean_apply (v : FVec Ideal S256x1024 .f32) (p : Fin 256) (k : Fin 1024) :
    broadcastTo S256x1024 (rowAvg v) broadcasts_S256x1_S256x1024 (ix2 p k) = Cert.Spec.mean (fun d => v (ix2 p d)) :=
  (column_spread_apply _ _ p k).trans (rowAvg_apply v p)

/-- A block with each row's mean taken off. -/
def centred (v : FVec Ideal S256x1024 .f32) : FVec Ideal S256x1024 .f32 :=
  subf v (broadcastTo S256x1024 (rowAvg v) broadcasts_S256x1_S256x1024)

theorem centred_apply (v : FVec Ideal S256x1024 .f32) (p : Fin 256) (k : Fin 1024) :
    centred v (ix2 p k) = Cert.Spec.cen (fun d => v (ix2 p d)) k :=
  congrArg (fun t => v (ix2 p k) - t) (mean_apply v p k)

/-- The reciprocal square root of each row's variance plus the small constant, kept as a column. -/
def rowScale (v : FVec Ideal S256x1024 .f32) : FVec Ideal S256x1 .f32 :=
  rsqrt (addf (rowAvg (mulf (centred v) (centred v))) (broadcast S256x1 (Scalar.ofBits .f32 0x3727C5AC#32)))

theorem rowScale_apply (v : FVec Ideal S256x1024 .f32) (p : Fin 256) :
    rowScale v (ix2 p (0 : Fin 1)) = Cert.Spec.scale (fun d => v (ix2 p d)) := by
  show Ideal.rsqrt (rowAvg (mulf (centred v) (centred v)) (ix2 p (0 : Fin 1)) + Ideal.ofBits .f32 0x3727C5AC#32) = _
  refine congrArg (fun t => Ideal.rsqrt (t + Ideal.ofBits .f32 0x3727C5AC#32)) ?_
  refine (rowAvg_apply _ p).trans ?_
  refine congrArg (fun t => Ideal.div t (Ideal.ofBits .f32 0x44800000#32)) ?_
  exact Finset.sum_congr rfl fun d _ => congrArg₂ (· * ·) (centred_apply v p d) (centred_apply v p d)

/-! ## The normalised block -/

/-- The centred block scaled row by row, multiplied by γ and shifted by β along the columns. -/
def normedArr (v : FVec Ideal S256x1024 .f32) (g b : Vec Ideal S1024 .f32) : FVec Ideal S256x1024 .f32 :=
  addf
    (mulf (mulf (centred v) (broadcastTo S256x1024 (rowScale v) broadcasts_S256x1_S256x1024))
      (broadcastTo S256x1024 (shapeCast S1x1024 g shapeCasts_S1024_S1x1024) broadcasts_S1x1024_S256x1024))
    (broadcastTo S256x1024 (shapeCast S1x1024 b shapeCasts_S1024_S1x1024) broadcasts_S1x1024_S256x1024)

theorem normedArr_apply (v : FVec Ideal S256x1024 .f32) (g b : Vec Ideal S1024 .f32) (p : Fin 256) (k : Fin 1024) :
    normedArr v g b (ix2 p k)
      = Cert.Spec.normed (fun d => v (ix2 p d)) (fun d => g (ix1 d)) (fun d => b (ix1 d)) k :=
  congrArg₂ (· + ·)
    (congrArg₂ (· * ·)
      (congrArg₂ (· * ·) (centred_apply v p k) ((column_spread_apply _ _ p k).trans (rowScale_apply v p)))
      (Cert.RowOps.row_repeated_apply g shapeCasts_S1024_S1x1024 broadcasts_S1x1024_S256x1024 p k))
    (Cert.RowOps.row_repeated_apply b shapeCasts_S1024_S1x1024 broadcasts_S1x1024_S256x1024 p k)

/-! ## The gate -/

/-- The gate z · 1/(1 + exp (0 - z)) applied entry by entry. -/
def gateArr {s : Shape} (z : FVec Ideal s .f32) : FVec Ideal s .f32 :=
  mulf z (divf (broadcast s (Scalar.ofBits .f32 0x3F800000#32))
    (addf (broadcast s (Scalar.ofBits .f32 0x3F800000#32))
      (exp (subf (broadcast s (Scalar.ofBits .f32 0x00000000#32)) z))))

theorem gateArr_apply {s : Shape} (z : FVec Ideal s .f32) (i : s.Idx) : gateArr z i = Cert.Spec.gate (z i) := by
  show z i * Ideal.div (Ideal.ofBits .f32 0x3F800000#32)
      (Ideal.ofBits .f32 0x3F800000#32 + Ideal.exp (Ideal.ofBits .f32 0x00000000#32 - z i)) = _
  rw [Ideal.ofBits_zero_f32, zero_sub]
  rfl

/-! ## The first layer -/

/-- The normalised block times the first weight matrix, plus its bias along the columns, gated. -/
def projArr (v : FVec Ideal S256x1024 .f32) (g b : Vec Ideal S1024 .f32) (W : Vec Ideal S1024x2048 .bf16)
    (c : Vec Ideal S2048 .f32) : FVec Ideal S256x2048 .f32 :=
  gateArr
    (addf
      (matmul dot_S256x1024_S1024x2048_S256x2048_1_0_0_1_n_n none (truncf .bf16 (normedArr v g b) bitsLt_bf16_f32)
        (shapeCast S1024x2048 W shapeCasts_S1024x2048_S1024x2048 : FVec Ideal S1024x2048 .bf16)
        (constant S256x2048 .f32 0x00000000#32))
      (broadcastTo S256x2048 (shapeCast S1x2048 c shapeCasts_S2048_S1x2048) broadcasts_S1x2048_S256x2048))

theorem projArr_apply (v : FVec Ideal S256x1024 .f32) (g b : Vec Ideal S1024 .f32) (W : Vec Ideal S1024x2048 .bf16)
    (c : Vec Ideal S2048 .f32) (p : Fin 256) (e : Fin 2048) :
    projArr v g b W c (ix2 p e)
      = Cert.Spec.proj (fun d => v (ix2 p d)) (fun d => g (ix1 d)) (fun d => b (ix1 d)) (fun e k => W (ix2 k e))
          (fun e => c (ix1 e)) e := by
  refine (gateArr_apply _ _).trans (congrArg Cert.Spec.gate ?_)
  refine congrArg₂ (· + ·) ?_
    (Cert.RowOps.row_repeated_apply c shapeCasts_S2048_S1x2048 broadcasts_S1x2048_S256x2048 p e)
  refine (Cert.PlainMatmul.zero_acc_apply dot_S256x1024_S1024x2048_S256x2048_1_0_0_1_n_n_wf none
    (truncf .bf16 (normedArr v g b) bitsLt_bf16_f32)
    (shapeCast S1024x2048 W shapeCasts_S1024x2048_S1024x2048 : FVec Ideal S1024x2048 .bf16) p e).trans ?_
  refine Finset.sum_congr rfl fun k _ => congrArg₂ (· * ·) (normedArr_apply v g b p k) ?_
  rw [shapeCast_self]

/-! ## The second layer -/

/-- A block of 2048 columns times the second weight matrix, plus its bias and the initial state along the columns,
    gated. -/
def stateArr (h : FVec Ideal S256x2048 .bf16) (Ws : Vec Ideal S2048x8 .bf16) (bs : Vec Ideal S8 .f32)
    (s0 : Vec Ideal S1x8 .f32) : FVec Ideal S256x8 .f32 :=
  gateArr
    (addf
      (addf
        (matmul dot_S256x2048_S2048x8_S256x8_1_0_0_1_n_n none h
          (shapeCast S2048x8 Ws shapeCasts_S2048x8_S2048x8 : FVec Ideal S2048x8 .bf16)
          (constant S256x8 .f32 0x00000000#32))
        (broadcastTo S256x8 (shapeCast S1x8 bs shapeCasts_S8_S1x8) broadcasts_S1x8_S256x8))
      (broadcastTo S256x8 s0 broadcasts_S1x8_S256x8))

theorem stateArr_apply (h : FVec Ideal S256x2048 .bf16) (Ws : Vec Ideal S2048x8 .bf16) (bs : Vec Ideal S8 .f32)
    (s0 : Vec Ideal S1x8 .f32) (p : Fin 256) (n : Fin 8) (H : Fin 2048 → EReal) (hH : ∀ e, h (ix2 p e) = H e) :
    stateArr h Ws bs s0 (ix2 p n)
      = Cert.Spec.gate (((∑ e : Fin 2048, H e * Ws (ix2 e n)) + bs (ix1 n)) + s0 (ix2 (0 : Fin 1) n)) := by
  refine (gateArr_apply _ _).trans (congrArg Cert.Spec.gate ?_)
  refine congrArg₂ (· + ·) (congrArg₂ (· + ·) ?_
      (Cert.RowOps.row_repeated_apply bs shapeCasts_S8_S1x8 broadcasts_S1x8_S256x8 p n))
    (broadcastTo_1b_ab_apply s0 broadcasts_S1x8_S256x8 p n)
  refine (Cert.PlainMatmul.zero_acc_apply dot_S256x2048_S2048x8_S256x8_1_0_0_1_n_n_wf none h
    (shapeCast S2048x8 Ws shapeCasts_S2048x8_S2048x8 : FVec Ideal S2048x8 .bf16) p n).trans ?_
  refine Finset.sum_congr rfl fun e _ => congrArg₂ (· * ·) (hH e) ?_
  rw [shapeCast_self]

/-! ## The third layer and the residual -/

/-- A block of 8 columns times the third weight matrix, plus its bias along the columns, added to the block `v`. -/
def outArr (v : FVec Ideal S256x1024 .f32) (st : FVec Ideal S256x8 .f32) (Wo : Vec Ideal S8x1024 .bf16)
    (bo : Vec Ideal S1024 .f32) : FVec Ideal S256x1024 .f32 :=
  addf v
    (addf
      (matmul dot_S256x8_S8x1024_S256x1024_1_0_0_1_n_n none (truncf .bf16 st bitsLt_bf16_f32)
        (shapeCast S8x1024 Wo shapeCasts_S8x1024_S8x1024 : FVec Ideal S8x1024 .bf16)
        (constant S256x1024 .f32 0x00000000#32))
      (broadcastTo S256x1024 (shapeCast S1x1024 bo shapeCasts_S1024_S1x1024) broadcasts_S1x1024_S256x1024))

theorem outArr_apply (v : FVec Ideal S256x1024 .f32) (st : FVec Ideal S256x8 .f32) (Wo : Vec Ideal S8x1024 .bf16)
    (bo : Vec Ideal S1024 .f32) (p : Fin 256) (q : Fin 1024) (T : Fin 8 → EReal) (hT : ∀ n, st (ix2 p n) = T n) :
    outArr v st Wo bo (ix2 p q) = v (ix2 p q) + ((∑ n : Fin 8, T n * Wo (ix2 n q)) + bo (ix1 q)) := by
  refine congrArg (fun t => v (ix2 p q) + t) ?_
  refine congrArg₂ (· + ·) ?_
    (Cert.RowOps.row_repeated_apply bo shapeCasts_S1024_S1x1024 broadcasts_S1x1024_S256x1024 p q)
  refine (Cert.PlainMatmul.zero_acc_apply dot_S256x8_S8x1024_S256x1024_1_0_0_1_n_n_wf none
    (truncf .bf16 st bitsLt_bf16_f32)
    (shapeCast S8x1024 Wo shapeCasts_S8x1024_S8x1024 : FVec Ideal S8x1024 .bf16) p q).trans ?_
  refine Finset.sum_congr rfl fun n _ => congrArg₂ (· * ·) (hT n) ?_
  rw [shapeCast_self]

/-! ## The kernel's three terms are these arrays -/

theorem pay2_eq (x0 : Vec Ideal S256x1024 .f32) : k0_pay2 (F := Ideal) x0 = x0 :=
  shapeCast_self x0 shapeCasts_S256x1024_S256x1024

theorem pay3_eq (x0 : Vec Ideal S256x1024 .f32) (g b : Vec Ideal S1024 .f32) (W : Vec Ideal S1024x2048 .bf16)
    (c : Vec Ideal S2048 .f32) :
    k0_pay3 (F := Ideal) x0 g b W c = truncf .bf16 (projArr (k0_pay2 x0) g b W c) bitsLt_bf16_f32 := rfl

theorem pay1_eq (v1 : FVec Ideal S256x1024 .f32) (v42 : FVec Ideal S256x2048 .bf16) (Ws : Vec Ideal S2048x8 .bf16)
    (bs : Vec Ideal S8 .f32) (s0 : Vec Ideal S1x8 .f32) (Wo : Vec Ideal S8x1024 .bf16) (bo : Vec Ideal S1024 .f32) :
    k0_pay1 (F := Ideal) v1 v42 Ws bs s0 Wo bo = outArr v1 (stateArr v42 Ws bs s0) Wo bo := rfl

/-! ## One block of the kernel -/

theorem zeros1 : (![0] : Fin 1 → Nat) = fun _ => 0 := funext fun a => by fin_cases a; rfl

theorem zeros2 : (![0, 0] : Fin 2 → Nat) = fun _ => 0 := funext fun a => by fin_cases a <;> rfl

/-- Every rectangle of the body is a whole buffer at offset zero, so the body leaves the stored term computed from the
    ten input blocks themselves. -/
theorem out_eq (x0 : Vec Ideal S256x1024 .f32) (x1 : Vec Ideal S1024x2048 .bf16) (x2 : Vec Ideal S2048 .f32)
    (x3 : Vec Ideal S2048x8 .bf16) (x4 : Vec Ideal S8 .f32) (x5 : Vec Ideal S8x1024 .bf16) (x6 x7 x8 : Vec Ideal S1024 .f32)
    (x9 : Vec Ideal S1x8 .f32) :
    out0_10 (F := Ideal) x0 x1 x2 x3 x4 x5 x6 x7 x8 x9
      = k0_pay1 (k0_pay2 x0) (k0_pay3 x0 x7 x8 x1 x2) x3 x4 x9 x5 x6 := by
  unfold out0_10
  rw [View.canon_unit_zero zeros2]
  simp only [View.ld_unit_zero (S := S256x1024) zeros2, View.ld_unit_zero (S := S1024) zeros1,
    View.ld_unit_zero (S := S1024x2048) zeros2, View.ld_unit_zero (S := S2048) zeros1,
    View.ld_unit_zero (S := S2048x8) zeros2, View.ld_unit_zero (S := S8) zeros1,
    View.ld_unit_zero (S := S1x8) zeros2, View.ld_unit_zero (S := S8x1024) zeros2]

/-- One block of the kernel is, row by row, the specification's row function of that row of the block of x. -/
theorem block_apply (x0 : Vec Ideal S256x1024 .f32) (x1 : Vec Ideal S1024x2048 .bf16) (x2 : Vec Ideal S2048 .f32)
    (x3 : Vec Ideal S2048x8 .bf16) (x4 : Vec Ideal S8 .f32) (x5 : Vec Ideal S8x1024 .bf16) (x6 x7 x8 : Vec Ideal S1024 .f32)
    (x9 : Vec Ideal S1x8 .f32) (p : Fin 256) (q : Fin 1024) :
    out0_10 (F := Ideal) x0 x1 x2 x3 x4 x5 x6 x7 x8 x9 (ix2 p q)
      = Cert.Spec.out (fun k => x0 (ix2 p k)) (fun k => x7 (ix1 k)) (fun k => x8 (ix1 k)) (fun e k => x1 (ix2 k e))
          (fun e => x2 (ix1 e)) (fun n e => x3 (ix2 e n)) (fun n => x4 (ix1 n)) (fun n => x9 (ix2 (0 : Fin 1) n))
          (fun c n => x5 (ix2 n c)) (fun c => x6 (ix1 c)) q := by
  rw [out_eq, pay1_eq, pay3_eq, pay2_eq]
  refine outArr_apply x0 _ x5 x6 p q _ fun n => ?_
  exact stateArr_apply _ x3 x4 x9 p n _ fun e => projArr_apply x0 x7 x8 x1 x2 p e

end Cert.BodyValue

end
-- ==== Proof.Blocks.lean ====
/-
  From the kernel's blocks to its whole output array.

  The kernel walks the 50176 flattened rows in 196 blocks of 256 rows.  At point t it reads rows t·256 … t·256 + 255 of
  the flattened input and the whole of every weight, bias, γ, β and initial-state array, and writes the same rows of the
  output.  Each written row is the row function of the matching input row, so what point t writes back is block t of
  ONE array, `flatResult`; the blocks tile the rows (row r lies in the block of point r / 256), so after the region the
  output array is that array.
-/
import proofs.«123422_j88467736363285_1_alg».proof.Proof.Gen.KernelIdeal.Frame
import proofs.«123422_j88467736363285_1_alg».proof.Proof.Spec
import proofs.«123422_j88467736363285_1_alg».proof.Proof.BodyValue
import Idealize.ShloMosaic.Lib.Pipeline.Value
import Idealize.ShloMosaic.Lib.ValueIdx

noncomputable section

namespace Cert.Blocks

open Idealize.ShloMosaic Idealize.ShloMosaic.TcCoe Idealize.ShloMosaic.ValueIdx Idealize.SL.Sem
open Cert.KernelIdeal Cert.KernelIdeal.Gen
open Idealize.ShloMosaic.Pipeline (Dat)

/-- One entry of the flattened result: the row function of row r of the flattened input, with the weights as the
    region finds them (each weight matrix transposed: one row per input unit). -/
def flatEntry (xf : S50176x1024.Idx → EReal) (w1 : S1024x2048.Idx → EReal) (b2 : S2048.Idx → EReal) (w3 : S2048x8.Idx → EReal) (b4 : S8.Idx → EReal) (w5 : S8x1024.Idx → EReal) (b6 g7 b8 : S1024.Idx → EReal) (s9 : S1x8.Idx → EReal) (r : Fin 50176) (d : Fin 1024) : EReal :=
  Cert.Spec.out (fun k => xf (ix2 r k)) (fun k => g7 (ix1 k)) (fun k => b8 (ix1 k)) (fun e k => w1 (ix2 k e))
    (fun e => b2 (ix1 e)) (fun n e => w3 (ix2 e n)) (fun n => b4 (ix1 n)) (fun n => s9 (ix2 (0 : Fin 1) n))
    (fun c n => w5 (ix2 n c)) (fun c => b6 (ix1 c)) d

/-- The flattened result array, 50176 rows of 1024 channels. -/
def flatResult (xf : S50176x1024.Idx → EReal) (w1 : S1024x2048.Idx → EReal) (b2 : S2048.Idx → EReal) (w3 : S2048x8.Idx → EReal) (b4 : S8.Idx → EReal) (w5 : S8x1024.Idx → EReal) (b6 g7 b8 : S1024.Idx → EReal) (s9 : S1x8.Idx → EReal) : S50176x1024.Idx → EReal :=
  fun i => flatEntry xf w1 b2 w3 b4 w5 b6 g7 b8 s9 ⟨(i 0).val, (i 0).isLt⟩ ⟨(i 1).val, (i 1).isLt⟩

theorem flatResult_of (xf : S50176x1024.Idx → EReal) (w1 : S1024x2048.Idx → EReal) (b2 : S2048.Idx → EReal) (w3 : S2048x8.Idx → EReal) (b4 : S8.Idx → EReal) (w5 : S8x1024.Idx → EReal) (b6 g7 b8 : S1024.Idx → EReal) (s9 : S1x8.Idx → EReal) (i : S50176x1024.Idx) (r : Fin 50176) (d : Fin 1024)
    (h0 : (i 0).val = r.val) (h1 : (i 1).val = d.val) :
    flatResult xf w1 b2 w3 b4 w5 b6 g7 b8 s9 i = flatEntry xf w1 b2 w3 b4 w5 b6 g7 b8 s9 r d := by
  obtain rfl : r = ⟨(i 0).val, (i 0).isLt⟩ := Fin.ext h0.symm
  obtain rfl : d = ⟨(i 1).val, (i 1).isLt⟩ := Fin.ext h1.symm
  rfl

variable (m : (ℓ : Loc nD τ sig) → Buf (Elt Ideal) ℓ)

/-- The printed index maps over the grid: the row windows (input 0, output 10) sit at block (t, 0) at point t, every
    other window at block zero on each axis. -/
theorem idx_facts : ∀ t : Fin cfg0.N, win0_0.index t (0 : Fin 2) = t.val ∧ win0_0.index t (1 : Fin 2) = 0
    ∧ win0_10.index t (0 : Fin 2) = t.val ∧ win0_10.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 ∧ win0_7.index t (0 : Fin 1) = 0 ∧ win0_8.index t (0 : Fin 1) = 0
    ∧ win0_9.index t (0 : Fin 2) = 0 ∧ win0_9.index t (1 : Fin 2) = 0 :=
  (by decide +kernel : ∀ t : Fin grid0.N, _)

/-- Row p, channel k of the input block at point t is row t·256 + p of the flattened input. -/
theorem rows_block (c : Dev nD) (t : Fin cfg0.N) (p : Fin 256) (k : Fin 1024) (i : S50176x1024.Idx)
    (h0 : (i 0).val = t.val * 256 + p.val) (h1 : (i 1).val = k.val) :
    iblk m c 0 t (ix2 p k) = (V m c main_v0 : S50176x1024.Idx → EReal) i := by
  obtain ⟨e0, e1, -⟩ := idx_facts t
  show V m c main_v0 (((cfg0.win 0).blk t).view.emb (ix2 p k)) = V m c main_v0 i
  refine congrArg _ (funext fun a => Fin.ext ?_)
  match a with
  | ⟨0, _⟩ => show win0_0.index t (0 : Fin 2) * 256 + 1 * p.val = (i 0).val; omega
  | ⟨1, _⟩ => show win0_0.index t (1 : Fin 2) * 1024 + 1 * k.val = (i 1).val; omega

/-- Every other input window's block is its whole array. -/
theorem wp_block (c : Dev nD) (t : Fin cfg0.N) (y : S1024x2048.Idx) :
    iblk m c 1 t y = (V m c main_v2 : S1024x2048.Idx → EReal) y := by
  obtain ⟨-, -, -, -, e0, e1, -⟩ := idx_facts t
  show V m c main_v2 (((cfg0.win 1).blk t).view.emb y) = V m c main_v2 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 2048 + 1 * (y 1).val = (y 1).val; omega

theorem bp_block (c : Dev nD) (t : Fin cfg0.N) (y : S2048.Idx) :
    iblk m c 2 t y = (V m c main_arg2 : S2048.Idx → EReal) y := by
  obtain ⟨-, -, -, -, -, -, e0, -⟩ := idx_facts t
  show V m c main_arg2 (((cfg0.win 2).blk t).view.emb y) = V m c main_arg2 y
  refine congrArg _ (funext fun a => Fin.ext ?_)
  match a with
  | ⟨0, _⟩ => show win0_2.index t (0 : Fin 1) * 2048 + 1 * (y 0).val = (y 0).val; omega

theorem ws_block (c : Dev nD) (t : Fin cfg0.N) (y : S2048x8.Idx) :
    iblk m c 3 t y = (V m c main_v4 : S2048x8.Idx → EReal) y := by
  obtain ⟨-, -, -, -, -, -, -, e0, e1, -⟩ := idx_facts t
  show V m c main_v4 (((cfg0.win 3).blk t).view.emb y) = V m c main_v4 y
  refine congrArg _ (funext fun a => Fin.ext ?_)
  match a with
  | ⟨0, _⟩ => show win0_3.index t (0 : Fin 2) * 2048 + 1 * (y 0).val = (y 0).val; omega
  | ⟨1, _⟩ => show win0_3.index t (1 : Fin 2) * 8 + 1 * (y 1).val = (y 1).val; omega

theorem bs_block (c : Dev nD) (t : Fin cfg0.N) (y : S8.Idx) :
    iblk m c 4 t y = (V m c main_arg4 : S8.Idx → EReal) y := by
  obtain ⟨-, -, -, -, -, -, -, -, -, e0, -⟩ := idx_facts t
  show V m c main_arg4 (((cfg0.win 4).blk t).view.emb y) = V m c main_arg4 y
  refine congrArg _ (funext fun a => Fin.ext ?_)
  match a with
  | ⟨0, _⟩ => show win0_4.index t (0 : Fin 1) * 8 + 1 * (y 0).val = (y 0).val; omega

theorem wo_block (c : Dev nD) (t : Fin cfg0.N) (y : S8x1024.Idx) :
    iblk m c 5 t y = (V m c main_v6 : S8x1024.Idx → EReal) y := by
  obtain ⟨-, -, -, -, -, -, -, -, -, -, e0, e1, -⟩ := idx_facts t
  show V m c main_v6 (((cfg0.win 5).blk t).view.emb y) = V m c main_v6 y
  refine congrArg _ (funext fun a => Fin.ext ?_)
  match a with
  | ⟨0, _⟩ => show win0_5.index t (0 : Fin 2) * 8 + 1 * (y 0).val = (y 0).val; omega
  | ⟨1, _⟩ => show win0_5.index t (1 : Fin 2) * 1024 + 1 * (y 1).val = (y 1).val; omega

theorem bo_block (c : Dev nD) (t : Fin cfg0.N) (y : S1024.Idx) :
    iblk m c 6 t y = (V m c main_arg6 : S1024.Idx → EReal) y := by
  obtain ⟨-, -, -, -, -, -, -, -, -, -, -, -, e0, -⟩ := idx_facts t
  show V m c main_arg6 (((cfg0.win 6).blk t).view.emb y) = V m c main_arg6 y
  refine congrArg _ (funext fun a => Fin.ext ?_)
  match a with
  | ⟨0, _⟩ => show win0_6.index t (0 : Fin 1) * 1024 + 1 * (y 0).val = (y 0).val; omega

theorem gamma_block (c : Dev nD) (t : Fin cfg0.N) (y : S1024.Idx) :
    iblk m c 7 t y = (V m c main_arg8 : S1024.Idx → EReal) y := by
  obtain ⟨-, -, -, -, -, -, -, -, -, -, -, -, -, e0, -⟩ := idx_facts t
  show V m c main_arg8 (((cfg0.win 7).blk t).view.emb y) = V m c main_arg8 y
  refine congrArg _ (funext fun a => Fin.ext ?_)
  match a with
  | ⟨0, _⟩ => show win0_7.index t (0 : Fin 1) * 1024 + 1 * (y 0).val = (y 0).val; omega

theorem beta_block (c : Dev nD) (t : Fin cfg0.N) (y : S1024.Idx) :
    iblk m c 8 t y = (V m c main_arg9 : S1024.Idx → EReal) y := by
  obtain ⟨-, -, -, -, -, -, -, -, -, -, -, -, -, -, e0, -⟩ := idx_facts t
  show V m c main_arg9 (((cfg0.win 8).blk t).view.emb y) = V m c main_arg9 y
  refine congrArg _ (funext fun a => Fin.ext ?_)
  match a with
  | ⟨0, _⟩ => show win0_8.index t (0 : Fin 1) * 1024 + 1 * (y 0).val = (y 0).val; omega

theorem init_block (c : Dev nD) (t : Fin cfg0.N) (y : S1x8.Idx) :
    iblk m c 9 t y = (V m c main_arg7 : S1x8.Idx → EReal) y := by
  obtain ⟨-, -, -, -, -, -, -, -, -, -, -, -, -, -, -, e0, e1⟩ := idx_facts t
  show V m c main_arg7 (((cfg0.win 9).blk t).view.emb y) = V m c main_arg7 y
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 8 + 1 * (y 1).val = (y 1).val; omega

/-- What point t writes back is block t of the flattened result of the arrays the region finds: row p of the block is
    row t·256 + p of the result, and every row of the block is the row function of the matching input row. -/
theorem flushed_eq (c : Dev nD) (t : Fin cfg0.N) :
    (dats m 0 c).flushed 10 t
      = ((cfg0.win 10).blk t).view.read (Elt Ideal) (flatResult (V m c main_v0) (V m c main_v2) (V m c main_arg2) (V m c main_v4) (V m c main_arg4) (V m c main_v6) (V m c main_arg6) (V m c main_arg8) (V m c main_arg9) (V m c main_arg7)) := by
  show (cfg0.win 10).cut (grid0.coords t) ((dats m 0 c).after 10 t) = _
  rw [after0_10]
  refine funext fun (j : S256x1024.Idx) => ?_
  obtain ⟨p, q, rfl⟩ : ∃ (p : Fin 256) (q : Fin 1024), j = ix2 p q := ⟨j 0, j 1, eq_ix2 j⟩
  obtain ⟨-, -, e0, e1, -⟩ := idx_facts t
  have hN : cfg0.N = 196 := N_0
  have hr : t.val * 256 + p.val < 50176 := by have := t.isLt; have := p.isLt; omega
  show out0_10 (iblk m c 0 t) (iblk m c 1 t) (iblk m c 2 t) (iblk m c 3 t) (iblk m c 4 t) (iblk m c 5 t) (iblk m c 6 t) (iblk m c 7 t) (iblk m c 8 t) (iblk m c 9 t) (ix2 p q)
    = flatResult (V m c main_v0) (V m c main_v2) (V m c main_arg2) (V m c main_v4) (V m c main_arg4) (V m c main_v6) (V m c main_arg6) (V m c main_arg8) (V m c main_arg9) (V m c main_arg7) (((cfg0.win 10).blk t).view.emb (ix2 p q))
  refine (Cert.BodyValue.block_apply (iblk m c 0 t) (iblk m c 1 t) (iblk m c 2 t) (iblk m c 3 t) (iblk m c 4 t) (iblk m c 5 t) (iblk m c 6 t) (iblk m c 7 t) (iblk m c 8 t) (iblk m c 9 t) p q).trans ?_
  rw [flatResult_of (V m c main_v0) (V m c main_v2) (V m c main_arg2) (V m c main_v4) (V m c main_arg4) (V m c main_v6) (V m c main_arg6) (V m c main_arg8) (V m c main_arg9) (V m c main_arg7) (((cfg0.win 10).blk t).view.emb (ix2 p q)) ⟨t.val * 256 + p.val, hr⟩ q
    (by show win0_10.index t (0 : Fin 2) * 256 + 1 * p.val = t.val * 256 + p.val; omega)
    (by show win0_10.index t (1 : Fin 2) * 1024 + 1 * q.val = q.val; omega)]
  unfold flatEntry
  have a0 : (fun k : Fin 1024 => iblk m c 0 t (ix2 p k))
      = fun k => (V m c main_v0 : S50176x1024.Idx → EReal) (ix2 (⟨t.val * 256 + p.val, hr⟩ : Fin 50176) k) :=
    funext fun k => rows_block m c t p k _ rfl rfl
  have a1 : (fun (e : Fin 2048) (k : Fin 1024) => iblk m c 1 t (ix2 k e))
      = fun e k => (V m c main_v2 : S1024x2048.Idx → EReal) (ix2 k e) :=
    funext fun e => funext fun k => wp_block m c t _
  have a2 : (fun e : Fin 2048 => iblk m c 2 t (ix1 e)) = fun e => (V m c main_arg2 : S2048.Idx → EReal) (ix1 e) :=
    funext fun e => bp_block m c t _
  have a3 : (fun (n : Fin 8) (e : Fin 2048) => iblk m c 3 t (ix2 e n))
      = fun n e => (V m c main_v4 : S2048x8.Idx → EReal) (ix2 e n) :=
    funext fun n => funext fun e => ws_block m c t _
  have a4 : (fun n : Fin 8 => iblk m c 4 t (ix1 n)) = fun n => (V m c main_arg4 : S8.Idx → EReal) (ix1 n) :=
    funext fun n => bs_block m c t _
  have a5 : (fun (d : Fin 1024) (n : Fin 8) => iblk m c 5 t (ix2 n d))
      = fun d n => (V m c main_v6 : S8x1024.Idx → EReal) (ix2 n d) :=
    funext fun d => funext fun n => wo_block m c t _
  have a6 : (fun d : Fin 1024 => iblk m c 6 t (ix1 d)) = fun d => (V m c main_arg6 : S1024.Idx → EReal) (ix1 d) :=
    funext fun d => bo_block m c t _
  have a7 : (fun k : Fin 1024 => iblk m c 7 t (ix1 k)) = fun k => (V m c main_arg8 : S1024.Idx → EReal) (ix1 k) :=
    funext fun k => gamma_block m c t _
  have a8 : (fun k : Fin 1024 => iblk m c 8 t (ix1 k)) = fun k => (V m c main_arg9 : S1024.Idx → EReal) (ix1 k) :=
    funext fun k => beta_block m c t _
  have a9 : (fun n : Fin 8 => iblk m c 9 t (ix2 (0 : Fin 1) n))
      = fun n => (V m c main_arg7 : S1x8.Idx → EReal) (ix2 (0 : Fin 1) n) :=
    funext fun n => init_block m c t _
  rw [a0, a1, a2, a3, a4, a5, a6, a7, a8, a9]

/-- An index of the flattened result is in point t's block iff each coordinate is in the block's range on its axis. -/
theorem mem_blk (t : Fin cfg0.N) (i : S50176x1024.Idx) :
    i ∈ ((cfg0.win 10).blk t).view.set ↔ ∀ a : Fin 2, win0_10.index t a * S256x1024.size a ≤ (i a).val
      ∧ (i a).val < win0_10.index t a * S256x1024.size a + S256x1024.size a := by
  show i ∈ ((View.whole main_v7).slice (win0_10.rect t)).set ↔ _
  rw [View.set_slice_whole, Rect.mem_set_unit]
  exact Iff.rfl

/-- The 196 blocks of 256 rows tile the 50176 rows: row r is in the block of point r / 256. -/
theorem cover (i : S50176x1024.Idx) :
    ∃ t : Fin cfg0.N, (cfg0.win 10).flush t = true ∧ i ∈ ((cfg0.win 10).blk t).view.set := by
  have hi0 : (i 0).val < 50176 := (i 0).isLt
  have hi1 : (i 1).val < 1024 := (i 1).isLt
  have hN : cfg0.N = 196 := N_0
  have ht : (i 0).val / 256 < cfg0.N := by rw [hN]; omega
  obtain ⟨-, -, e0, e1, -⟩ := idx_facts ⟨(i 0).val / 256, ht⟩
  refine ⟨⟨(i 0).val / 256, ht⟩, flush0_10 _, ?_⟩
  rw [mem_blk]
  intro a
  match a with
  | ⟨0, _⟩ =>
    show win0_10.index ⟨(i 0).val / 256, ht⟩ (0 : Fin 2) * 256 ≤ (i 0).val
      ∧ (i 0).val < win0_10.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win0_10.index ⟨(i 0).val / 256, ht⟩ (1 : Fin 2) * 1024 ≤ (i 1).val
      ∧ (i 1).val < win0_10.index ⟨(i 0).val / 256, ht⟩ (1 : Fin 2) * 1024 + 1024
    rw [e1]
    omega

/-- After the region the output array holds the flattened result of the arrays the region found. -/
theorem final (c : Dev nD) :
    (dats m 0 c).arrAt 10 cfg0.N = flatResult (V m c main_v0) (V m c main_v2) (V m c main_arg2) (V m c main_v4) (V m c main_arg4) (V m c main_v6) (V m c main_arg6) (V m c main_arg8) (V m c main_arg9) (V m c main_arg7) :=
  (dats m 0 c).arrAt_eq_of_cover 10 _ (fun t _ => flushed_eq m c t) cover

end Cert.Blocks

end
-- ==== Proof.LibTranspose.lean ====
/-
  A two-axis array with its axes exchanged, read at an entry.

  Exchanging the two axes of an [a, b] array gives a [b, a] array whose entry (j, i) is the entry (i, j) of the
  original, whatever the extents and the element type.
-/
import Idealize.ShloMosaic.Lib.Pipeline.Value
import Idealize.ShloMosaic.Lib.ValueIdx

noncomputable section

namespace Cert.Transpose

open Idealize.ShloMosaic Idealize.ShloMosaic.ValueIdx

/-- A transposed two-axis array read at (j, i) is the array at (i, j). -/
theorem swapped_apply {α : Type} {a b : ℕ} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) fun ax => by
    match ax with
    | ⟨0, _⟩ => rfl
    | ⟨1, _⟩ => rfl

end Cert.Transpose

end
-- ==== Proof.Arrays.lean ====
/-
  The arrays the kernel's region finds, read at an entry.

  Before the region the program flattens x from [2, 128, 196, 1024] to 50176 rows of 1024 channels (position (b, s, p)
  becomes row (b·128 + s)·196 + p) and transposes each weight matrix, so that the region's weight arrays have one row
  per input unit; narrowing a float to a shorter format does nothing on the extended reals.  After the region the
  50176 result rows are laid back on four axes.
-/
import proofs.«123422_j88467736363285_1_alg».proof.Proof.Gen.KernelIdeal.Frame
import Idealize.ShloMosaic.Lib.Pipeline.Value
import Idealize.ShloMosaic.Lib.ValueIdx
import Idealize.ShloMosaic.Lib.StableHlo.Run
import proofs.«123422_j88467736363285_1_alg».proof.Proof.LibTranspose

noncomputable section

namespace Cert.Arrays

open Idealize.ShloMosaic Idealize.ShloMosaic.TcCoe Idealize.ShloMosaic.ValueIdx Idealize.SL.Sem
open Cert.KernelIdeal Cert.KernelIdeal.Gen

/-- The row of the flattened array that holds position (b, s, p). -/
def flat (b : Fin 2) (s : Fin 128) (p : Fin 196) : Fin 50176 :=
  ⟨(b.val * 128 + s.val) * 196 + p.val, by have := b.isLt; have := s.isLt; have := p.isLt; omega⟩

/-- The four-axis array flattened to rows: row `flat b s p`, channel k, is entry (b, s, p, k). -/
theorem flattened_apply {α : Type} (x : (⟨4, ![2, 128, 196, 1024]⟩ : Shape).Idx → α)
    (h : (⟨4, ![2, 128, 196, 1024]⟩ : Shape).ShapeCasts ⟨2, ![50176, 1024]⟩)
    (b : Fin 2) (s : Fin 128) (p : Fin 196) (k : Fin 1024) :
    shapeCast ⟨2, ![50176, 1024]⟩ x h (ix2 (flat b s p) k) = x (ix4 b s p k) :=
  shapeCast_apply x h _ _ (by
    rw [Shape.rowMajor_val_four, Shape.rowMajor_val_two]
    show ((b.val * 128 + s.val) * 196 + p.val) * 1024 + k.val = ((b.val * 128 + s.val) * 196 + p.val) * 1024 + k.val
    rfl)

/-- The rows re-laid on four axes: entry (b, s, p, d) is row `flat b s p`, channel d. -/
theorem unflattened_apply {α : Type} (y : (⟨2, ![50176, 1024]⟩ : Shape).Idx → α)
    (h : (⟨2, ![50176, 1024]⟩ : Shape).ShapeCasts ⟨4, ![2, 128, 196, 1024]⟩)
    (b : Fin 2) (s : Fin 128) (p : Fin 196) (d : Fin 1024) :
    shapeCast ⟨4, ![2, 128, 196, 1024]⟩ y h (ix4 b s p d) = y (ix2 (flat b s p) d) :=
  shapeCast_apply y h _ _ (by
    rw [Shape.rowMajor_val_four, Shape.rowMajor_val_two]
    show ((b.val * 128 + s.val) * 196 + p.val) * 1024 + d.val = ((b.val * 128 + s.val) * 196 + p.val) * 1024 + d.val
    rfl)

variable (m : (ℓ : Loc nD τ sig) → Buf (Elt Ideal) ℓ)

/-- The flattened input the region finds: row `flat b s p`, channel k, is x at (b, s, p, k). -/
theorem found_rows (c : Dev nD) (b : Fin 2) (s : Fin 128) (p : Fin 196) (k : Fin 1024) :
    (V m c main_v0 : S50176x1024.Idx → EReal) (ix2 (flat b s p) k)
      = (m ((c : Thread nD τ).loc main_arg0) : S2x128x196x1024.Idx → EReal) (ix4 b s p k) := by
  have e : (V m c main_v0 : S50176x1024.Idx → EReal)
      = shapeCast S50176x1024 (m ((c : Thread nD τ).loc main_arg0)) shapeCasts_S2x128x196x1024_S50176x1024 := by
    show StableHlo.after hostOps0 (fun b => m (c, b)) (Proc.devRef .tc main_v0) = _
    after_results
    rfl
  rw [e]
  exact flattened_apply _ _ b s p k

/-- The first layer's weights as the region finds them: entry (k, e) is the weight of input k for unit e. -/
theorem found_wp (c : Dev nD) (k : Fin 1024) (e : Fin 2048) :
    (V m c main_v2 : S1024x2048.Idx → EReal) (ix2 k e)
      = (m ((c : Thread nD τ).loc main_arg1) : S2048x1024.Idx → EReal) (ix2 e k) := by
  have h : (V m c main_v2 : S1024x2048.Idx → EReal)
      = truncf (F := Ideal) .bf16 (transpose S1024x2048 [1, 0] (m ((c : Thread nD τ).loc main_arg1) : S2048x1024.Idx → EReal) transposes_S2048x1024_S1024x2048_1_0) bitsLt_bf16_f32 := by
    show StableHlo.after hostOps0 (fun b => m (c, b)) (Proc.devRef .tc main_v2) = _
    after_results <;> rfl
  rw [h]
  exact Cert.Transpose.swapped_apply _ _ e k

/-- The second layer's weights as the region finds them: entry (e, n) is the weight of input e for unit n. -/
theorem found_ws (c : Dev nD) (e : Fin 2048) (n : Fin 8) :
    (V m c main_v4 : S2048x8.Idx → EReal) (ix2 e n)
      = (m ((c : Thread nD τ).loc main_arg3) : S8x2048.Idx → EReal) (ix2 n e) := by
  have h : (V m c main_v4 : S2048x8.Idx → EReal)
      = truncf (F := Ideal) .bf16 (transpose S2048x8 [1, 0] (m ((c : Thread nD τ).loc main_arg3) : S8x2048.Idx → EReal) transposes_S8x2048_S2048x8_1_0) bitsLt_bf16_f32 := by
    show StableHlo.after hostOps0 (fun b => m (c, b)) (Proc.devRef .tc main_v4) = _
    after_results <;> rfl
  rw [h]
  exact Cert.Transpose.swapped_apply _ _ n e

/-- The third layer's weights as the region finds them: entry (n, d) is the weight of input n for unit d. -/
theorem found_wo (c : Dev nD) (n : Fin 8) (d : Fin 1024) :
    (V m c main_v6 : S8x1024.Idx → EReal) (ix2 n d)
      = (m ((c : Thread nD τ).loc main_arg5) : S1024x8.Idx → EReal) (ix2 d n) := by
  have h : (V m c main_v6 : S8x1024.Idx → EReal)
      = truncf (F := Ideal) .bf16 (transpose S8x1024 [1, 0] (m ((c : Thread nD τ).loc main_arg5) : S1024x8.Idx → EReal) transposes_S1024x8_S8x1024_1_0) bitsLt_bf16_f32 := by
    show StableHlo.after hostOps0 (fun b => m (c, b)) (Proc.devRef .tc main_v6) = _
    after_results <;> rfl
  rw [h]
  exact Cert.Transpose.swapped_apply _ _ d n

end Cert.Arrays

end
-- ==== Proof.KernelValue.lean ====
/-
  The kernel's result as a function of its arguments.

  After the region the program lays the 50176 result rows back on four axes.  Entry (b, s, p, d) of the result is row
  (b·128 + s)·196 + p, channel d, of the flattened result; that row's input is row (b, s, p) of x, and each weight
  array the region found is the transpose of the argument, so the entry is the specification's entry of the argument
  arrays.  The run below restates the program's run with the result buffer at that array and the arguments unchanged.
-/
import proofs.«123422_j88467736363285_1_alg».proof.Proof.Blocks
import proofs.«123422_j88467736363285_1_alg».proof.Proof.Arrays
import Idealize.ShloMosaic.Lib.StableHlo.Run

noncomputable section

namespace Cert.Blocks

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-- The result buffer after the lines that follow the region: the flattened result laid back on four axes. -/
theorem tail_eq (c : Dev nD) :
    (Pipeline.afterTail₀ cfgs (dats m) 0 (V0 m) [hostOps1] c main_v8 : S2x128x196x1024.Idx → EReal)
      = shapeCast S2x128x196x1024 (flatResult (V m c main_v0) (V m c main_v2) (V m c main_arg2) (V m c main_v4) (V m c main_arg4) (V m c main_v6) (V m c main_arg6) (V m c main_arg8) (V m c main_arg9) (V m c main_arg7)) shapeCasts_S50176x1024_S2x128x196x1024 := by
  have hw := (Pipeline.withArrays_arr spec0 launch0.win.arr_inj c (V0 m c) (fun w => (dats m 0 c).arrAt w cfg0.N) 10).trans
    (final m c)
  unfold Pipeline.afterTail₀
  show StableHlo.after hostOps1 _ (Proc.devRef .tc main_v8) = _
  after_results
  funext i
  exact congrArg (fun y : S50176x1024.Idx → EReal => shapeCast S2x128x196x1024 y shapeCasts_S50176x1024_S2x128x196x1024 i) hw

/-- The kernel's result, entry by entry, is the specification's result of the argument arrays: row `flat b s p` of the
    flattened input is row (b, s, p) of x, and each transposed weight matrix read at (k, e) is the matrix at (e, k). -/
theorem result_eq (c : Dev nD) :
    (Pipeline.afterTail₀ cfgs (dats m) 0 (V0 m) [hostOps1] c main_v8 : S2x128x196x1024.Idx → EReal)
      = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [tail_eq]
  funext i
  obtain ⟨b, s, p, d, rfl⟩ : ∃ (b : Fin 2) (s : Fin 128) (p : Fin 196) (d : Fin 1024), i = ix4 b s p d :=
    ⟨i 0, i 1, i 2, i 3, eq_ix4 i⟩
  rw [Cert.Arrays.unflattened_apply, Cert.Spec.result_apply,
    flatResult_of (V m c main_v0) (V m c main_v2) (V m c main_arg2) (V m c main_v4) (V m c main_arg4) (V m c main_v6) (V m c main_arg6) (V m c main_arg8) (V m c main_arg9) (V m c main_arg7) (ix2 (Cert.Arrays.flat b s p) d) (Cert.Arrays.flat b s p) d rfl rfl]
  unfold flatEntry Cert.Spec.entry
  have a0 : (fun k : Fin 1024 => (V m c main_v0 : S50176x1024.Idx → EReal) (ix2 (Cert.Arrays.flat b s p) k))
      = fun k => (m ((c : Thread nD τ).loc main_arg0) : S2x128x196x1024.Idx → EReal) (ix4 b s p k) :=
    funext fun k => Cert.Arrays.found_rows m c b s p k
  have a1 : (fun (e : Fin 2048) (k : Fin 1024) => (V m c main_v2 : S1024x2048.Idx → EReal) (ix2 k e))
      = fun e k => (m ((c : Thread nD τ).loc main_arg1) : S2048x1024.Idx → EReal) (ix2 e k) :=
    funext fun e => funext fun k => Cert.Arrays.found_wp m c k e
  have a3 : (fun (n : Fin 8) (e : Fin 2048) => (V m c main_v4 : S2048x8.Idx → EReal) (ix2 e n))
      = fun n e => (m ((c : Thread nD τ).loc main_arg3) : S8x2048.Idx → EReal) (ix2 n e) :=
    funext fun n => funext fun e => Cert.Arrays.found_ws m c e n
  have a5 : (fun (d : Fin 1024) (n : Fin 8) => (V m c main_v6 : S8x1024.Idx → EReal) (ix2 n d))
      = fun d n => (m ((c : Thread nD τ).loc main_arg5) : S1024x8.Idx → EReal) (ix2 d n) :=
    funext fun d => funext fun n => Cert.Arrays.found_wo m c n d
  rw [a0, a1, a3, a5, V_main_arg2, V_main_arg4, V_main_arg6, V_main_arg7, V_main_arg8, V_main_arg9]

/-- Every weakly fair execution of the program terminates with the result buffer at the specification's result of the
    argument arrays, and the argument arrays unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v8) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).1 9).trans (((dats m 0 c).arrAt_in 9 rfl _).trans ((A_eq m c 9).trans (V_main_arg7 m c))),
      ((h c).1 7).trans (((dats m 0 c).arrAt_in 7 rfl _).trans ((A_eq m c 7).trans (V_main_arg8 m c))),
      ((h c).1 8).trans (((dats m 0 c).arrAt_in 8 rfl _).trans ((A_eq m c 8).trans (V_main_arg9 m c)))⟩) (run_main m ρ)

end Cert.Blocks

end
-- ==== Proof.lean ====
/-
  The kernel — a Pallas kernel that, for each row of 1024 channels, normalises the row (mean, variance, reciprocal square
  root, γ and β), sends it through three dense layers 1024 → 2048 → 8 → 1024 with the gate z · 1/(1 + exp (-z)) after the
  first two, and adds the row back — against the same computation written with plain array operations.

  On the extended reals the two programs compute the same expression, operation for operation: a change of float
  format is the identity, a matrix product accumulated onto zero and a contraction are the same finite sum, a lane
  reduction and a whole-axis reduction from zero are the same finite sum, and the kernel's 0 − z is −z.  The only
  differences are of arrangement: the kernel works on the input flattened to 50176 rows, in 196 blocks of 256 rows,
  with each weight matrix transposed beforehand; the reference keeps the four axes and contracts against the weight
  matrices as given.  No law that needs finiteness is used, so the precondition is never opened.

  `Cert.Spec` states the common function of one row; `Cert.BodyValue` shows a block of the kernel computes it row by
  row; `Cert.Blocks` assembles the blocks into the whole array and reads the arrays around the region;
  `Cert.RefValue` shows the reference computes it entry by entry.  The three frames are the programs' runs with the
  result dropped; nothing was rewritten between the kernel as printed and its idealised reading.
-/
import proofs.«123422_j88467736363285_1_alg».proof.Defs
import proofs.«123422_j88467736363285_1_alg».proof.Proof.Gen.Kernel
import proofs.«123422_j88467736363285_1_alg».proof.Proof.Gen.Kernel.Skeleton
import proofs.«123422_j88467736363285_1_alg».proof.Proof.Gen.Kernel.Launch
import proofs.«123422_j88467736363285_1_alg».proof.Proof.Gen.Kernel.Points
import proofs.«123422_j88467736363285_1_alg».proof.Proof.Gen.Kernel.Frame
import proofs.«123422_j88467736363285_1_alg».proof.Proof.Gen.KernelIdeal
import proofs.«123422_j88467736363285_1_alg».proof.Proof.Gen.KernelIdeal.Skeleton
import proofs.«123422_j88467736363285_1_alg».proof.Proof.Gen.KernelIdeal.Launch
import proofs.«123422_j88467736363285_1_alg».proof.Proof.Gen.KernelIdeal.Points
import proofs.«123422_j88467736363285_1_alg».proof.Proof.Gen.KernelIdeal.Frame
import proofs.«123422_j88467736363285_1_alg».proof.Proof.Gen.ReferenceIdeal
import proofs.«123422_j88467736363285_1_alg».proof.Proof.Gen.ReferenceIdeal.Run
import proofs.«123422_j88467736363285_1_alg».proof.Proof.Gen.ReferenceIdeal.Read
import proofs.«123422_j88467736363285_1_alg».proof.Proof.Gen.Pre_finite_inputs
import proofs.«123422_j88467736363285_1_alg».proof.Proof.RefValue
import proofs.«123422_j88467736363285_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference's run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the specification's result of the argument arrays, which agree. -/
theorem algebraic : Cert.algebraic_KernelIdeal_ReferenceIdeal := by
  intro m ρ m' ρ' _ hagree
  refine ⟨_, Cert.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v41_eq, Cert.RefValue.reference_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
